-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part3 {F : FTy → Type} [FloatOps F] (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  main_v53

def fn_part2 {F : FTy → Type} [FloatOps F] (main_arg7 : FVec F S512x1024 .f32) (main_arg8 : FVec F S1x1024 .f32) (main_arg9 : FVec F S1024x256 .f32) (main_arg10 : FVec F S1x256 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_v48 main_v49 main_v50

def fn_part1 {F : FTy → Type} [FloatOps F] (main_arg4 : FVec F S1x512 .f32) (main_arg5 : FVec F S512x256 .f32) (main_arg6 : FVec F S1x256 .f32) (main_arg7 : FVec F S512x1024 .f32) (main_arg8 : FVec F S1x1024 .f32) (main_arg9 : FVec F S1024x256 .f32) (main_arg10 : FVec F S1x256 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S512x1024 .f32) (main_arg2 : FVec F S1x1024 .f32) (main_arg3 : FVec F S1024x512 .f32) (main_arg4 : FVec F S1x512 .f32) (main_arg5 : FVec F S512x256 .f32) (main_arg6 : FVec F S1x256 .f32) (main_arg7 : FVec F S512x1024 .f32) (main_arg8 : FVec F S1x1024 .f32) (main_arg9 : FVec F S1024x256 .f32) (main_arg10 : FVec F S1x256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S512x2048 : Shape := ⟨2, ![512, 2048]⟩
abbrev S16384x256 : Shape := ⟨2, ![16384, 256]⟩
abbrev S1024x2048 : Shape := ⟨2, ![1024, 2048]⟩
abbrev S1024x1024 : Shape := ⟨2, ![1024, 1024]⟩

abbrev nBuf : Space → Nat
  | .hbm => 18
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S1x1024, .f32⟩
  | .hbm, ⟨3, _⟩ => ⟨S1024x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S512x1024, .f32⟩
  | .hbm, ⟨8, _⟩ => ⟨S1x1024, .f32⟩
  | .hbm, ⟨9, _⟩ => ⟨S1024x256, .f32⟩
  | .hbm, ⟨10, _⟩ => ⟨S1x256, .f32⟩
  | .hbm, ⟨11, _⟩ => ⟨S512x2048, .f32⟩
  | .hbm, ⟨12, _⟩ => ⟨S512x2048, .bf16⟩
  | .hbm, ⟨13, _⟩ => ⟨S1024x512, .bf16⟩
  | .hbm, ⟨14, _⟩ => ⟨S1024x256, .bf16⟩
  | .hbm, ⟨15, _⟩ => ⟨S512x256, .bf16⟩
  | .hbm, ⟨16, _⟩ => ⟨S16384x256, .f32⟩
  | .hbm, ⟨17, _⟩ => ⟨S16384x256, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1x512, .f32⟩
  | .local _ .vmem, ⟨7, _⟩ => ⟨S1024x256, .bf16⟩
  | .local _ .vmem, ⟨8, _⟩ => ⟨S1x256, .f32⟩
  | .local _ .vmem, ⟨9, _⟩ => ⟨S512x256, .bf16⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S512x1024_S512x1024_S512x2048_d1 : Shape.Concatenates [S512x1024, S512x1024] S512x2048 1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S1024x2048_o0_0_S1024x1024 : S1024x2048.Slices ![0, 0] S1024x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  slices_S1024x2048_o0_1024_S1024x1024 : S1024x2048.Slices ![0, 1024] S1024x1024
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  dot_S1024x512_S512x2048_S1024x2048_1_0_0_1_n_n_wf : DotDims.WF S1024x512 S512x2048 S1024x2048 [1] [0] [0] [1] [] []
  dot_S1024x1024_S1024x512_S1024x512_1_0_0_1_n_n_wf : DotDims.WF S1024x1024 S1024x512 S1024x512 [1] [0] [0] [1] [] []
  dot_S1024x1024_S1024x256_S1024x256_1_0_0_1_n_n_wf : DotDims.WF S1024x1024 S1024x256 S1024x256 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x256.size a
  hwx0_6 : ∀ i : grid0.Coords, EltTy.bits .bf16 = 32 ∨ (Rect.block (s := S1024x256) S1024x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S16384x256.size a
  hwx0_10 : ∀ i : grid0.Coords, EltTy.bits .f32 = 32 ∨ (Rect.block (s := S16384x256) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S16384x256.size a
  hwx0_11 : ∀ i : grid0.Coords, EltTy.bits .f32 = 32 ∨ (Rect.block (s := S16384x256) S1024x256.size (cc0_transform_11 i) (hinb0_11 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S512x2048 : Shape := ⟨2, ![512, 2048]⟩
abbrev S1x2048 : Shape := ⟨2, ![1, 2048]⟩
abbrev S_ : Shape := ⟨0, ![]⟩
abbrev S2048x768 : Shape := ⟨2, ![2048, 768]⟩
abbrev S1 : Shape := ⟨1, ![1]⟩
abbrev S2 : Shape := ⟨1, ![2]⟩
abbrev S1x768 : Shape := ⟨2, ![1, 768]⟩
abbrev S768x512 : Shape := ⟨2, ![768, 512]⟩
abbrev S256x256 : Shape := ⟨2, ![256, 256]⟩
abbrev S512x512 : Shape := ⟨2, ![512, 512]⟩
abbrev S512x768 : Shape := ⟨2, ![512, 768]⟩
abbrev S16384x256 : Shape := ⟨2, ![16384, 256]⟩

abbrev nBuf : Space → Nat
  | .hbm => 55
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S1x1024, .f32⟩
  | .hbm, ⟨3, _⟩ => ⟨S1024x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S512x1024, .f32⟩
  | .hbm, ⟨8, _⟩ => ⟨S1x1024, .f32⟩
  | .hbm, ⟨9, _⟩ => ⟨S1024x256, .f32⟩
  | .hbm, ⟨10, _⟩ => ⟨S1x256, .f32⟩
  | .hbm, ⟨11, _⟩ => ⟨S512x2048, .f32⟩
  | .hbm, ⟨12, _⟩ => ⟨S1x2048, .f32⟩
  | .hbm, ⟨13, _⟩ => ⟨S_, .f32⟩
  | .hbm, ⟨14, _⟩ => ⟨S2048x768, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2048x768, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S2048x768, .f32⟩
  | .hbm, ⟨27, _⟩ => ⟨S1x768, .f32⟩
  | .hbm, ⟨28, _⟩ => ⟨S_, .f32⟩
  | .hbm, ⟨29, _⟩ => ⟨S768x512, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S768x512, .f32⟩
  | .hbm, ⟨36, _⟩ => ⟨S256x256, .i32⟩
  | .hbm, ⟨37, _⟩ => ⟨S256x256, .i32⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S256x256, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S768x512, .f32⟩
  | .hbm, ⟨49, _⟩ => ⟨S_, .f32⟩
  | .hbm, ⟨50, _⟩ => ⟨S1x256, .f32⟩
  | .hbm, ⟨51, _⟩ => ⟨S1x512, .f32⟩
  | .hbm, ⟨52, _⟩ => ⟨S16384x512, .f32⟩
  | .hbm, ⟨53, _⟩ => ⟨S16384x256, .f32⟩
  | .hbm, ⟨54, _⟩ => ⟨S16384x256, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S1x2048, .f32⟩
  | .local _ .vmem, ⟨4, _⟩ => ⟨S2048x768, .f32⟩
  | .local _ .vmem, ⟨5, _⟩ => ⟨S1x768, .f32⟩
  | .local _ .vmem, ⟨6, _⟩ => ⟨S768x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x1024_S512x1024_S512x2048_d1 : Shape.Concatenates [S512x1024, S512x1024] S512x2048 1
  concatenates_S1x1024_S1x1024_S1x2048_d1 : Shape.Concatenates [S1x1024, S1x1024] S1x2048 1
  bcast_S_S2048x768 : S_.BroadcastsInDim S2048x768 (![] : Fin 0 → Fin S2048x768.rank)
  bcast_S_S1 : S_.BroadcastsInDim S1 (![] : Fin 0 → Fin S1.rank)
  concatenates_S1_S1_S2_d0 : Shape.Concatenates [S1, S1] S2 0
  concatenates_S1x512_S1x256_S1x768_d1 : Shape.Concatenates [S1x512, S1x256] S1x768 1
  bcast_S_S768x512 : S_.BroadcastsInDim S768x512 (![] : Fin 0 → Fin S768x512.rank)
  bcast_S_S256x256 : S_.BroadcastsInDim S256x256 (![] : Fin 0 → Fin S256x256.rank)
  bcast_S_S1x256 : S_.BroadcastsInDim S1x256 (![] : Fin 0 → Fin S1x256.rank)
  concatenates_S1x256_S1x256_S1x512_d1 : Shape.Concatenates [S1x256, S1x256] S1x512 1
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  iota_S512x2048_d1_w32 : S512x2048.Iotas .tc 32 [1]
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  iota_S512x768_d1_w32 : S512x768.Iotas .tc 32 [1]
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S16384x512_S16384x256_0_0 : S16384x512.Slices ![0, 0] S16384x256
  slices_S16384x512_S16384x256_0_256 : S16384x512.Slices ![0, 256] S16384x256
  scatter_S2048x768_S2_S1024x512_01_n_01_0_wf : ScatterDims.WF S2048x768 S2 S1024x512 [0, 1] [] [0, 1] 0
  scatter_S2048x768_S2_S1024x256_01_n_01_0_wf : ScatterDims.WF S2048x768 S2 S1024x256 [0, 1] [] [0, 1] 0
  scatter_S768x512_S2_S512x256_01_n_01_0_wf : ScatterDims.WF S768x512 S2 S512x256 [0, 1] [] [0, 1] 0
  scatter_S768x512_S2_S256x256_01_n_01_0_wf : ScatterDims.WF S768x512 S2 S256x256 [0, 1] [] [0, 1] 0
  dot_S512x512_S512x2048_S512x2048_1_0_0_1_n_n_wf : DotDims.WF S512x512 S512x2048 S512x2048 [1] [0] [0] [1] [] []
  dot_S512x2048_S2048x768_S512x768_1_0_0_1_n_n_wf : DotDims.WF S512x2048 S2048x768 S512x768 [1] [0] [0] [1] [] []
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S2048x768.size a
  hwx0_3 : ∀ i : grid0.Coords, EltTy.bits .f32 = 32 ∨ (Rect.block (s := S2048x768) S2048x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x512.size a ≤ S768x512.size a
  hwx0_5 : ∀ i : grid0.Coords, EltTy.bits .f32 = 32 ∨ (Rect.block (s := S768x512) S768x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def scatter_S2048x768_S2_S1024x512_01_n_01_0 : ScatterDims S2048x768 S2 S1024x512 where
  updateWindowDims := [0, 1]
  insertedWindowDims := []
  scatterDimsToOperandDims := [0, 1]
  indexVectorDim := 0
  wf := scatter_S2048x768_S2_S1024x512_01_n_01_0_wf
def scatter_S2048x768_S2_S1024x256_01_n_01_0 : ScatterDims S2048x768 S2 S1024x256 where
  updateWindowDims := [0, 1]
  insertedWindowDims := []
  scatterDimsToOperandDims := [0, 1]
  indexVectorDim := 0
  wf := scatter_S2048x768_S2_S1024x256_01_n_01_0_wf
def scatter_S768x512_S2_S512x256_01_n_01_0 : ScatterDims S768x512 S2 S512x256 where
  updateWindowDims := [0, 1]
  insertedWindowDims := []
  scatterDimsToOperandDims := [0, 1]
  indexVectorDim := 0
  wf := scatter_S768x512_S2_S512x256_01_n_01_0_wf
def scatter_S768x512_S2_S256x256_01_n_01_0 : ScatterDims S768x512 S2 S256x256 where
  updateWindowDims := [0, 1]
  insertedWindowDims := []
  scatterDimsToOperandDims := [0, 1]
  indexVectorDim := 0
  wf := scatter_S768x512_S2_S256x256_01_n_01_0_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S768x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Spec.lean ====
/-
  What both programs compute, written once on the extended reals as functions of the argument arrays.

  The network has two branches over the same input rows `x` (one row per sample):
    mu  = ((relu (x·w1m + b1m))·w2m + b2m).relu · w3m + b3m
    tau = (softplus (x·w1t + b1t)) · w2t + b2t
  where `softplus v = v` above the threshold 20 and `log (1 + exp v)` at or below it.

  One program evaluates the two branches separately. The other evaluates ONE stack of three dense
  layers over packed operands: the first layer's weights side by side (`hcat`), the second layer's
  block-diagonal (`blockDiag`: the off-diagonal blocks are zero), the third block-diagonal with an
  identity block passing the tau columns through, with the activation chosen per column (`layerSel`).
  This module names those shapes; that the packed stack restricted to its left and right columns is
  `mu` and `tau` is proved in `PackedAlgebra`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal

/-- The softplus threshold, the float 20.0. -/
def twenty : EReal := Ideal.ofBits .f32 0x41A00000#32

/-- `max v 0`. -/
def relu (v : EReal) : EReal := max v 0

/-- `v` above the threshold, `log (1 + exp v)` at or below it. -/
def softplus (v : EReal) : EReal := if twenty < v then v else Ideal.log1p (Ideal.exp v)

/-- The same with the exponential's argument clamped at the threshold first. -/
def softplusClamped (v : EReal) : EReal := if twenty < v then v else Ideal.log1p (Ideal.exp (min v twenty))

/-- The clamp is idle: the exponential is only used where `v` is at most the threshold, and there
    `min v 20 = v`. -/
theorem softplusClamped_eq (v : EReal) : softplusClamped v = softplus v := by
  unfold softplusClamped softplus
  by_cases h : twenty < v
  · rw [if_pos h, if_pos h]
  · rw [if_neg h, if_neg h, min_eq_left (not_lt.mp h)]

/-- A dense layer before its activation, at row `r` and column `k`: `∑ d, x(r,d)·w(d,k) + bias(k)`. -/
def dense {n a b : ℕ} (x : Mat n a) (w : Mat a b) (bias : Mat 1 b) (r : Fin n) (k : Fin b) : EReal :=
  (∑ d : Fin a, x (ix2 r d) * w (ix2 d k)) + bias (ix2 (0 : Fin 1) k)

/-- A dense layer with one activation on every column. -/
def layer {n a b : ℕ} (act : EReal → EReal) (x : Mat n a) (w : Mat a b) (bias : Mat 1 b) : Mat n b :=
  fun i => act (dense x w bias (i 0) (i 1))

/-- A dense layer with `actL` on the columns below `c` and `actR` on the others. -/
def layerSel {n a b : ℕ} (c : ℕ) (actL actR : EReal → EReal) (x : Mat n a) (w : Mat a b) (bias : Mat 1 b) : Mat n b :=
  fun i => if (i 1).val < c then actL (dense x w bias (i 0) (i 1)) else actR (dense x w bias (i 0) (i 1))

/-- The mu branch: two relu layers and a linear one. -/
def mu {n : ℕ} (x : Mat n 512) (w1m : Mat 512 1024) (b1m : Mat 1 1024) (w2m : Mat 1024 512) (b2m : Mat 1 512)
    (w3m : Mat 512 256) (b3m : Mat 1 256) : Mat n 256 :=
  layer id (layer relu (layer relu x w1m b1m) w2m b2m) w3m b3m

/-- The tau branch: a softplus layer and a linear one. -/
def tau {n : ℕ} (x : Mat n 512) (w1t : Mat 512 1024) (b1t : Mat 1 1024) (w2t : Mat 1024 256) (b2t : Mat 1 256) : Mat n 256 :=
  layer id (layer softplus x w1t b1t) w2t b2t

/-- A layer's value in a row depends on the input only through that row. -/
theorem layer_row {n n' a b : ℕ} (act : EReal → EReal) (x : Mat n a) (x' : Mat n' a) (w : Mat a b) (bias : Mat 1 b)
    (r : Fin n) (r' : Fin n') (k : Fin b) (h : ∀ d : Fin a, x (ix2 r d) = x' (ix2 r' d)) :
    layer act x w bias (ix2 r k) = layer act x' w bias (ix2 r' k) := by
  show act (dense x w bias r k) = act (dense x' w bias r' k)
  unfold dense
  rw [Finset.sum_congr rfl fun d _ => by rw [h d]]

/-- So the mu branch of a block of rows is the block of the mu branch. -/
theorem mu_row {n n' : ℕ} (x : Mat n 512) (x' : Mat n' 512) (w1m : Mat 512 1024) (b1m : Mat 1 1024) (w2m : Mat 1024 512)
    (b2m : Mat 1 512) (w3m : Mat 512 256) (b3m : Mat 1 256) (r : Fin n) (r' : Fin n') (q : Fin 256)
    (h : ∀ d : Fin 512, x (ix2 r d) = x' (ix2 r' d)) :
    mu x w1m b1m w2m b2m w3m b3m (ix2 r q) = mu x' w1m b1m w2m b2m w3m b3m (ix2 r' q) :=
  layer_row _ _ _ _ _ _ _ _ fun k => layer_row _ _ _ _ _ _ _ _ fun k' => layer_row _ _ _ _ _ _ _ _ h

/-- And likewise the tau branch. -/
theorem tau_row {n n' : ℕ} (x : Mat n 512) (x' : Mat n' 512) (w1t : Mat 512 1024) (b1t : Mat 1 1024) (w2t : Mat 1024 256)
    (b2t : Mat 1 256) (r : Fin n) (r' : Fin n') (q : Fin 256) (h : ∀ d : Fin 512, x (ix2 r d) = x' (ix2 r' d)) :
    tau x w1t b1t w2t b2t (ix2 r q) = tau x' w1t b1t w2t b2t (ix2 r' q) :=
  layer_row _ _ _ _ _ _ _ _ fun k => layer_row _ _ _ _ _ _ _ _ h

/-! ## Packed operands -/

/-- Two matrices side by side: the columns below `b` are `l`'s, the others `r`'s. -/
def hcat {a b c : ℕ} (n : ℕ) (h : n = b + c) (l : Mat a b) (r : Mat a c) : Mat a n :=
  fun i =>
    if hb : (i 1).val < b then l (ix2 (i 0) ⟨(i 1).val, hb⟩)
    else r (ix2 (i 0) ⟨(i 1).val - b, by have hlt : (i 1).val < n := (i 1).isLt; omega⟩)

/-- Two matrices on the diagonal of a larger one, zero off the diagonal blocks. -/
def blockDiag {a b c d : ℕ} (R C : ℕ) (hR : R = a + c) (hC : C = b + d) (tl : Mat a b) (br : Mat c d) : Mat R C :=
  fun i =>
    if hr : (i 0).val < a then
      if hc : (i 1).val < b then tl (ix2 ⟨(i 0).val, hr⟩ ⟨(i 1).val, hc⟩) else 0
    else
      if hc : (i 1).val < b then 0
      else br (ix2 ⟨(i 0).val - a, by have hlt : (i 0).val < R := (i 0).isLt; omega⟩
                   ⟨(i 1).val - b, by have hlt : (i 1).val < C := (i 1).isLt; omega⟩)

/-- The identity matrix. -/
def eye (n : ℕ) : Mat n n := fun i => if (i 0).val = (i 1).val then 1 else 0

/-- The zero matrix. -/
def zeros (a b : ℕ) : Mat a b := fun _ => 0

/-- The columns of `w` below `b`. -/
def leftCols {a : ℕ} (b c n : ℕ) (h : n = b + c) (w : Mat a n) : Mat a b :=
  fun i => w (ix2 (i 0) ⟨(i 1).val, by have hlt : (i 1).val < b := (i 1).isLt; omega⟩)

/-- The columns of `w` from `b` on. -/
def rightCols {a : ℕ} (b c n : ℕ) (h : n = b + c) (w : Mat a n) : Mat a c :=
  fun i => w (ix2 (i 0) ⟨b + (i 1).val, by have hlt : (i 1).val < c := (i 1).isLt; omega⟩)

theorem leftCols_hcat {a b c : ℕ} (n : ℕ) (h : n = b + c) (l : Mat a b) (r : Mat a c) :
    leftCols b c n h (hcat n h l r) = l := by
  funext i
  have hlt : (i 1).val < b := (i 1).isLt
  show hcat n h l r (ix2 (i 0) ⟨(i 1).val, _⟩) = l i
  unfold hcat
  rw [dif_pos (show ((ix2 (i 0) (⟨(i 1).val, _⟩ : Fin n) : (⟨2, ![a, n]⟩ : Shape).Idx) 1).val < b from hlt)]
  exact congrArg l (eq_ix2 i).symm

theorem rightCols_hcat {a b c : ℕ} (n : ℕ) (h : n = b + c) (l : Mat a b) (r : Mat a c) :
    rightCols b c n h (hcat n h l r) = r := by
  funext i
  show hcat n h l r (ix2 (i 0) ⟨b + (i 1).val, _⟩) = r i
  unfold hcat
  rw [dif_neg (show ¬ ((ix2 (i 0) (⟨b + (i 1).val, _⟩ : Fin n) : (⟨2, ![a, n]⟩ : Shape).Idx) 1).val < b from
    Nat.not_lt.mpr (Nat.le_add_right b _))]
  refine (congrArg r ?_).trans (congrArg r (eq_ix2 i).symm)
  refine congrArg (ix2 (i 0)) (Fin.ext ?_)
  show b + (i 1).val - b = (i 1).val
  omega

/-- The packed stack: three dense layers over packed operands, the activation chosen per column. -/
def packed {n : ℕ} (x : Mat n 512) (W1 : Mat 512 2048) (B1 : Mat 1 2048) (W2 : Mat 2048 768) (B2 : Mat 1 768)
    (W3 : Mat 768 512) (B3 : Mat 1 512) : Mat n 512 :=
  layer id (layerSel 512 relu id (layerSel 1024 relu softplusClamped x W1 B1) W2 B2) W3 B3

end Cert.Spec

end
-- ==== Proof.KernelPayload.lean ====
/-
  The kernel's two stored values as functions of the blocks it loads: the value stored to the mu window is
  the mu branch of the loaded rows, with the first layer's weights the LEFT half of the packed first-layer
  operand; the value stored to the tau window is the tau branch with the RIGHT half.

  Each product is read at an index as the sum over the contracted coordinate; a product plus its bias row is
  the dense layer's value; the maximum with the zero word is the rectifier and the select on the comparison
  with the threshold word is the softplus; the two column cuts of the first product are the dense layers over
  the left and the right columns of the packed weights.
-/
import proofs.«174333_g2000702497057735_pallasbulk_324_8_alg».proof.Proof.Gen.KernelIdeal.Skeleton
import proofs.«174333_g2000702497057735_pallasbulk_324_8_alg».proof.Proof.Spec
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Cert.KernelIdeal Cert.KernelIdeal.Gen

/-! ## A matrix product read at an index -/

/-- A product of an m×k by a k×n matrix accumulated into the zero splat, read at an index: the sum over the contracted
    coordinate of the products of the entries. -/
theorem matmul_rowcol_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Such a product with a bias row laid along every row added to it, read at an index, is the dense layer's value
    before its activation. -/
theorem dense_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (a : Fin m) (b : Fin n) :
    addf (matmul (⟨[1], [0], [0], [1], [], [], w⟩ : DotDims ⟨2, ![m, k]⟩ ⟨2, ![k, n]⟩ ⟨2, ![m, n]⟩) none A B
        (constant (F := Ideal) ⟨2, ![m, n]⟩ .f32 0x00000000#32)) (broadcastTo ⟨2, ![m, n]⟩ bias hb) (ix2 a b)
      = Cert.Spec.dense A B bias a b := by
  rw [addf_apply, matmul_rowcol_apply, broadcastTo_1b_ab_apply]
  rfl

/-! ## The two activations as the kernel writes them -/

/-- The maximum with the zero word is the rectifier. -/
theorem max_zero_word (v : EReal) : max v (Scalar.ofBits (F := Ideal) .f32 0x00000000#32) = Cert.Spec.relu v := by
  show max v (Ideal.ofBits .f32 0x00000000#32) = max v 0
  rw [Ideal.ofBits_zero_f32]

/-- A select on "z is greater than t" is the conditional on t < z. -/
theorem select_ogt (z t a b : EReal) : Scalar.select (Ideal.cmp .ogt z t) a b = if t < z then a else b := by
  show Scalar.select (BitVec.ofBool (decide (t < z))) a b = _
  by_cases h : t < z
  · rw [if_pos h, decide_eq_true h]; exact select_one a b
  · rw [if_neg h, decide_eq_false h]; exact select_zero a b

/-- The kernel's softplus at an element: the select between the argument and log (1 + exp ·) on the comparison with
    the threshold word. -/
theorem softplus_word (z : EReal) :
    Scalar.select (FloatOps.cmpf (F := Ideal) (φ := .f32) .ogt z (Scalar.ofBits (F := Ideal) .f32 0x41A00000#32)) z
        (FloatOps.log1p (F := Ideal) (φ := .f32) (FloatOps.exp (F := Ideal) (φ := .f32) z)) = Cert.Spec.softplus z := by
  rw [Ideal.cmpf_def]
  exact select_ogt z _ z _

/-! ## The packed first product, and the two hidden layers cut from it -/

/-- The first product at an index: the rows of the input against the columns of the packed weights. -/
theorem pay2_apply (x0 : FVec Ideal S1024x512 .f32) (x1 : FVec Ideal S512x2048 .bf16) (p : Fin 1024) (q : Fin 2048) :
    k0_pay2 (F := Ideal) x0 x1 (ix2 p q) = ∑ k : Fin 512, x0 (ix2 p k) * x1 (ix2 k q) := by
  unfold k0_pay2
  rw [shapeCast_self]
  exact matmul_rowcol_apply _ _ x1 p q

/-- The left half of the first product with its bias, rectified: the mu branch's first layer. -/
theorem hidden_mu_apply (x0 : FVec Ideal S1024x512 .f32) (x1 : FVec Ideal S512x2048 .bf16) (x2 : FVec Ideal S1x1024 .f32)
    (hs : S1024x2048.Slices ![0, 0] S1024x1024) (hb : S1x1024.Broadcasts S1024x1024) (p k : Fin 1024) :
    maximumf (addf (extractStridedSlice S1024x1024 ![0, 0] (k0_pay2 (F := Ideal) x0 x1) hs) (broadcastTo S1024x1024 x2 hb))
        (broadcast S1024x1024 (Scalar.ofBits (F := Ideal) .f32 0x00000000#32)) (ix2 p k)
      = Cert.Spec.layer Cert.Spec.relu x0 (Cert.Spec.leftCols 1024 1024 2048 rfl x1) x2 (ix2 p k) := by
  rw [maximumf_apply, addf_apply, broadcast_apply, max_zero_word,
    slice2_axis1_apply 0 _ hs p k (⟨k.val, by omega⟩ : Fin 2048) (Nat.zero_add _).symm, pay2_apply, broadcastTo_1b_ab_apply]
  rfl

/-- The right half of the first product with its bias, through the softplus: the tau branch's first layer. -/
theorem hidden_tau_apply (x0 : FVec Ideal S1024x512 .f32) (x1 : FVec Ideal S512x2048 .bf16) (x3 : FVec Ideal S1x1024 .f32)
    (hs : S1024x2048.Slices ![0, 1024] S1024x1024) (hb : S1x1024.Broadcasts S1024x1024) (p k : Fin 1024) :
    select (cmpf .ogt (addf (extractStridedSlice S1024x1024 ![0, 1024] (k0_pay2 (F := Ideal) x0 x1) hs) (broadcastTo S1024x1024 x3 hb))
          (broadcast S1024x1024 (Scalar.ofBits (F := Ideal) .f32 0x41A00000#32)))
        (addf (extractStridedSlice S1024x1024 ![0, 1024] (k0_pay2 (F := Ideal) x0 x1) hs) (broadcastTo S1024x1024 x3 hb))
        (log1p (exp (addf (extractStridedSlice S1024x1024 ![0, 1024] (k0_pay2 (F := Ideal) x0 x1) hs) (broadcastTo S1024x1024 x3 hb))))
        (ix2 p k)
      = Cert.Spec.layer Cert.Spec.softplus x0 (Cert.Spec.rightCols 1024 1024 2048 rfl x1) x3 (ix2 p k) := by
  rw [select_apply, cmpf_apply, broadcast_apply]
  refine (softplus_word _).trans ?_
  rw [addf_apply, slice2_axis1_apply 1024 _ hs p k (⟨1024 + k.val, by omega⟩ : Fin 2048) rfl, pay2_apply, broadcastTo_1b_ab_apply]
  rfl

/-! ## The kernel's stored values -/

/-- The mu branch's second layer over its first. -/
theorem pay4_eq (x0 : FVec Ideal S1024x512 .f32) (x1 : FVec Ideal S512x2048 .bf16) (x2 : FVec Ideal S1x1024 .f32)
    (x4 : FVec Ideal S1024x512 .bf16) (x5 : FVec Ideal S1x512 .f32) :
    k0_pay4 (F := Ideal) x0 x1 x2 x4 x5
      = Cert.Spec.layer Cert.Spec.relu (Cert.Spec.layer Cert.Spec.relu x0 (Cert.Spec.leftCols 1024 1024 2048 rfl x1) x2) x4 x5 := by
  funext j
  obtain ⟨p, q, rfl⟩ : ∃ (p : Fin 1024) (q : Fin 512), j = ix2 p q := ⟨j 0, j 1, eq_ix2 j⟩
  unfold k0_pay4
  rw [truncf_apply, maximumf_apply, broadcast_apply, max_zero_word, shapeCast_self]
  refine (congrArg Cert.Spec.relu (dense_apply _ _ x4 x5 _ p q)).trans ?_
  refine Cert.Spec.layer_row Cert.Spec.relu _ _ x4 x5 p p q fun d => ?_
  rw [truncf_apply]
  exact hidden_mu_apply x0 x1 x2 _ _ p d

/-- The mu branch's last layer over whatever its second layer is. -/
theorem pay1_eq (v36 : FVec Ideal S1024x512 .bf16) (x8 : FVec Ideal S512x256 .bf16) (x9 : FVec Ideal S1x256 .f32) :
    k0_pay1 (F := Ideal) v36 x8 x9 = Cert.Spec.layer id v36 x8 x9 := by
  funext j
  obtain ⟨p, q, rfl⟩ : ∃ (p : Fin 1024) (q : Fin 256), j = ix2 p q := ⟨j 0, j 1, eq_ix2 j⟩
  unfold k0_pay1
  rw [shapeCast_self]
  exact dense_apply _ v36 x8 x9 _ p q

theorem pay_mu (x0 : Vec Ideal S1024x512 .f32) (x1 : Vec Ideal S512x2048 .bf16) (x2 : Vec Ideal S1x1024 .f32)
    (x4 : Vec Ideal S1024x512 .bf16) (x5 : Vec Ideal S1x512 .f32) (x8 : Vec Ideal S512x256 .bf16) (x9 : Vec Ideal S1x256 .f32) :
    k0_pay1 (F := Ideal) (k0_pay4 x0 x1 x2 x4 x5) x8 x9
      = Cert.Spec.mu x0 (Cert.Spec.leftCols 1024 1024 2048 rfl x1) x2 x4 x5 x8 x9 := by
  rw [pay1_eq, pay4_eq]
  rfl

theorem pay_tau (x0 : Vec Ideal S1024x512 .f32) (x1 : Vec Ideal S512x2048 .bf16) (x3 : Vec Ideal S1x1024 .f32)
    (x6 : Vec Ideal S1024x256 .bf16) (x7 : Vec Ideal S1x256 .f32) :
    k0_pay3 (F := Ideal) x0 x1 x3 x6 x7
      = Cert.Spec.tau x0 (Cert.Spec.rightCols 1024 1024 2048 rfl x1) x3 x6 x7 := by
  funext j
  obtain ⟨p, q, rfl⟩ : ∃ (p : Fin 1024) (q : Fin 256), j = ix2 p q := ⟨j 0, j 1, eq_ix2 j⟩
  unfold k0_pay3
  rw [shapeCast_self]
  refine (dense_apply _ _ x6 x7 _ p q).trans ?_
  refine Cert.Spec.layer_row id _ _ x6 x7 p p q fun d => ?_
  rw [truncf_apply]
  exact hidden_tau_apply x0 x1 x3 _ _ p d

end Cert.KernelIdeal.Bridge

end
-- ==== Proof.KernelHost.lean ====
/-
  What the kernel's region finds in the operands the host prepared before it: the packed first-layer
  weights are the two branches' weights side by side, and the three narrowed weight arrays are the
  arguments themselves (a change of float format is the identity on the extended reals).
-/
import proofs.«174333_g2000702497057735_pallasbulk_324_8_alg».proof.Proof.Gen.KernelIdeal.Frame
import proofs.«174333_g2000702497057735_pallasbulk_324_8_alg».proof.Proof.Spec
import Idealize.ShloMosaic.Lib.Pipeline.Value
import Idealize.ShloMosaic.Lib.StableHlo.Run

noncomputable section

namespace Cert.KernelIdeal.Bridge

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD)

/-- The packed first-layer operand as the host operations leave it: the two weight arrays concatenated along the
    columns, then narrowed. -/
theorem V_w1_term : @Eq (S512x2048.Idx → EReal) (Gen.V (F := Ideal) m c main_call0_v1)
    (truncf (F := Ideal) (φ := .f32) .bf16
      (concatenate S512x2048 1 [⟨S512x1024, m ((c : Thread nD τ).loc main_arg1)⟩, ⟨S512x1024, m ((c : Thread nD τ).loc main_arg7)⟩]
        Facts₀.concatenates_S512x1024_S512x1024_S512x2048_d1) Facts₀.bitsLt_bf16_f32) := by
  dsimp only [Gen.V, Gen.hostOps0]; after_results; rfl

/-- Two arrays of 1024 columns concatenated along the columns, read at an index: the first array at a column below
    1024, the second at the column less 1024 otherwise. -/
theorem concat_cols_apply (l r : S512x1024.Idx → EReal) (h : Shape.Concatenates [S512x1024, S512x1024] S512x2048 1)
    (p : Fin 512) (q : Fin 2048) :
    concatenate S512x2048 1 [⟨S512x1024, l⟩, ⟨S512x1024, r⟩] h (ix2 p q) = Cert.Spec.hcat 2048 rfl l r (ix2 p q) := by
  unfold Cert.Spec.hcat
  by_cases hq : q.val < 1024
  · rw [dif_pos (show ((ix2 p q : (⟨2, ![512, 2048]⟩ : Shape).Idx) 1).val < 1024 from hq)]
    exact concatenate_pair_apply_left (t := S512x2048) (s₁ := S512x1024) (s₂ := S512x1024) 1 l r h (ix2 p q) rfl
      (ix2 p (⟨q.val, hq⟩ : Fin 1024)) (fun b => by
        match b with
        | ⟨0, _⟩ => rfl
        | ⟨1, _⟩ => rfl)
  · rw [dif_neg (show ¬ ((ix2 p q : (⟨2, ![512, 2048]⟩ : Shape).Idx) 1).val < 1024 from hq)]
    have hlt : q.val < 2048 := q.isLt
    exact concatenate_pair_apply_right (t := S512x2048) (s₁ := S512x1024) (s₂ := S512x1024) 1 l r h (ix2 p q) rfl rfl
      (ix2 p (⟨q.val - 1024, by omega⟩ : Fin 1024)) (fun b hb => by
        match b with
        | ⟨0, _⟩ => rfl
        | ⟨1, _⟩ => exact absurd rfl hb) (by
        show q.val - 1024 + 1024 = q.val
        omega)

theorem V_w1 : Gen.V (F := Ideal) m c main_call0_v1
    = Cert.Spec.hcat 2048 rfl (m ((c : Thread nD τ).loc main_arg1)) (m ((c : Thread nD τ).loc main_arg7)) := by
  refine (V_w1_term m c).trans ?_
  funext j
  obtain ⟨p, q, rfl⟩ : ∃ (p : Fin 512) (q : Fin 2048), j = ix2 p q := ⟨j 0, j 1, eq_ix2 j⟩
  rw [truncf_apply]
  exact concat_cols_apply _ _ _ p q

theorem V_w2m : Gen.V (F := Ideal) m c main_call0_v2 = m ((c : Thread nD τ).loc main_arg3) := by
  have e : @Eq (S1024x512.Idx → EReal) (Gen.V (F := Ideal) m c main_call0_v2)
      (truncf (F := Ideal) (φ := .f32) .bf16 (m ((c : Thread nD τ).loc main_arg3)) Facts₀.bitsLt_bf16_f32) := by
    dsimp only [Gen.V, Gen.hostOps0]; after_results; rfl
  exact e

theorem V_w2t : Gen.V (F := Ideal) m c main_call0_v3 = m ((c : Thread nD τ).loc main_arg9) := by
  have e : @Eq (S1024x256.Idx → EReal) (Gen.V (F := Ideal) m c main_call0_v3)
      (truncf (F := Ideal) (φ := .f32) .bf16 (m ((c : Thread nD τ).loc main_arg9)) Facts₀.bitsLt_bf16_f32) := by
    dsimp only [Gen.V, Gen.hostOps0]; after_results; rfl
  exact e

theorem V_w3m : Gen.V (F := Ideal) m c main_call0_v4 = m ((c : Thread nD τ).loc main_arg5) := by
  have e : @Eq (S512x256.Idx → EReal) (Gen.V (F := Ideal) m c main_call0_v4)
      (truncf (F := Ideal) (φ := .f32) .bf16 (m ((c : Thread nD τ).loc main_arg5)) Facts₀.bitsLt_bf16_f32) := by
    dsimp only [Gen.V, Gen.hostOps0]; after_results; rfl
  exact e

end Cert.KernelIdeal.Bridge

end
-- ==== Proof.KernelRun.lean ====
/-
  From the blocks to the arrays: the kernel's run with its two result arrays named by the specification.

  The kernel visits 16 grid points; point `t` loads rows `1024·t … 1024·t + 1023` of x and every weight and bias
  array whole, and stores one block of 1024 rows into each of the two result arrays. The stored blocks are the mu
  and the tau branch of the loaded blocks (`pay_mu`, `pay_tau`), the packed first-layer operand is the two
  branches' weights side by side (`V_w1`), so its left and right halves are the branches' own weights, and a
  branch's value in a row depends on x only through that row (`Cert.Spec.mu_row`, `tau_row`): what point `t`
  writes back is block `t` of the branch of the whole arrays. The 16 blocks cover the 16384 rows (row `r` lies in
  the block of point `r / 1024`), so each result array ends holding its branch of the argument arrays.
-/
import proofs.«174333_g2000702497057735_pallasbulk_324_8_alg».proof.Proof.Gen.KernelIdeal.Value
import proofs.«174333_g2000702497057735_pallasbulk_324_8_alg».proof.Proof.KernelPayload
import proofs.«174333_g2000702497057735_pallasbulk_324_8_alg».proof.Proof.KernelHost
import proofs.«174333_g2000702497057735_pallasbulk_324_8_alg».proof.Proof.Spec

noncomputable section

namespace Cert.KernelIdeal.Bridge

open Idealize.ShloMosaic Idealize.ShloMosaic.TcCoe Idealize.SL.Sem Cert.KernelIdeal Cert.KernelIdeal.Gen
open Idealize.ShloMosaic.ValueIdx

section Blocks

variable (m : (ℓ : Loc nD τ sig) → Buf (Elt Ideal) ℓ)

/-- The zero offsets of a whole-block rectangle. -/
theorem hz : (![0, 0] : Fin 2 → Nat) = fun _ => 0 := funext fun a => by fin_cases a <;> rfl

/-- The index maps, decided over the 16 grid points: the x window and the two result windows are at block
    `(t, 0)` at point `t`; every weight and bias window stays at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The mu branch of a block of rows: when the loaded x block is rows `1024·n …` of `X`, the packed first-layer
    block is the two branches' weights side by side, and the other blocks are the whole arrays, the stored value at
    `j` is the mu branch of `X` at the array index `i` that `j` names. -/
theorem mu_at (X : Cert.Spec.Mat 16384 512) (w1m w1t : Cert.Spec.Mat 512 1024) (b1m : Cert.Spec.Mat 1 1024)
    (w2m : Cert.Spec.Mat 1024 512) (b2m : Cert.Spec.Mat 1 512) (w3m : Cert.Spec.Mat 512 256) (b3m : Cert.Spec.Mat 1 256)
    (x0 : Vec Ideal S1024x512 .f32) (x1 : Vec Ideal S512x2048 .bf16) (x2 : Vec Ideal S1x1024 .f32)
    (x4 : Vec Ideal S1024x512 .bf16) (x5 : Vec Ideal S1x512 .f32) (x8 : Vec Ideal S512x256 .bf16) (x9 : Vec Ideal S1x256 .f32)
    (n : ℕ)
    (h0 : ∀ (y : S1024x512.Idx) (k : S16384x512.Idx), (k 0).val = 1024 * n + (y 0).val → (k 1).val = (y 1).val → x0 y = X k)
    (h1 : x1 = Cert.Spec.hcat 2048 rfl w1m w1t) (h2 : x2 = b1m) (h4 : x4 = w2m) (h5 : x5 = b2m) (h8 : x8 = w3m) (h9 : x9 = b3m)
    (j : S1024x256.Idx) (i : S16384x256.Idx) (hi0 : (i 0).val = 1024 * n + (j 0).val) (hi1 : (i 1).val = (j 1).val) :
    k0_pay1 (F := Ideal) (k0_pay4 x0 x1 x2 x4 x5) x8 x9 j = Cert.Spec.mu X w1m b1m w2m b2m w3m b3m i := by
  subst h1 h2 h4 h5 h8 h9
  rw [pay_mu, Cert.Spec.leftCols_hcat]
  obtain ⟨p, q, rfl⟩ : ∃ (p : Fin 1024) (q : Fin 256), j = ix2 p q := ⟨j 0, j 1, eq_ix2 j⟩
  obtain ⟨r, q', rfl⟩ : ∃ (r : Fin 16384) (q' : Fin 256), i = ix2 r q' := ⟨i 0, i 1, eq_ix2 i⟩
  have hr : r.val = 1024 * n + p.val := hi0
  obtain rfl : q' = q := Fin.ext hi1
  exact Cert.Spec.mu_row _ _ _ _ _ _ _ _ p r q' fun d => h0 (ix2 p d) (ix2 r d) hr rfl

/-- And the tau branch of a block of rows. -/
theorem tau_at (X : Cert.Spec.Mat 16384 512) (w1m w1t : Cert.Spec.Mat 512 1024) (b1t : Cert.Spec.Mat 1 1024)
    (w2t : Cert.Spec.Mat 1024 256) (b2t : Cert.Spec.Mat 1 256)
    (x0 : Vec Ideal S1024x512 .f32) (x1 : Vec Ideal S512x2048 .bf16) (x3 : Vec Ideal S1x1024 .f32)
    (x6 : Vec Ideal S1024x256 .bf16) (x7 : Vec Ideal S1x256 .f32)
    (n : ℕ)
    (h0 : ∀ (y : S1024x512.Idx) (k : S16384x512.Idx), (k 0).val = 1024 * n + (y 0).val → (k 1).val = (y 1).val → x0 y = X k)
    (h1 : x1 = Cert.Spec.hcat 2048 rfl w1m w1t) (h3 : x3 = b1t) (h6 : x6 = w2t) (h7 : x7 = b2t)
    (j : S1024x256.Idx) (i : S16384x256.Idx) (hi0 : (i 0).val = 1024 * n + (j 0).val) (hi1 : (i 1).val = (j 1).val) :
    k0_pay3 (F := Ideal) x0 x1 x3 x6 x7 j = Cert.Spec.tau X w1t b1t w2t b2t i := by
  subst h1 h3 h6 h7
  rw [pay_tau, Cert.Spec.rightCols_hcat]
  obtain ⟨p, q, rfl⟩ : ∃ (p : Fin 1024) (q : Fin 256), j = ix2 p q := ⟨j 0, j 1, eq_ix2 j⟩
  obtain ⟨r, q', rfl⟩ : ∃ (r : Fin 16384) (q' : Fin 256), i = ix2 r q' := ⟨i 0, i 1, eq_ix2 i⟩
  have hr : r.val = 1024 * n + p.val := hi0
  obtain rfl : q' = q := Fin.ext hi1
  exact Cert.Spec.tau_row _ _ _ _ _ _ p r q' fun d => h0 (ix2 p d) (ix2 r d) hr rfl

/-- The x window's block at point `t` is rows `1024·t … 1024·t + 1023` of the argument. -/
theorem iblk0_apply (c : Dev nD) (t : Fin cfg0.N) (y : S1024x512.Idx) (k : S16384x512.Idx)
    (hk0 : (k 0).val = 1024 * t.val + (y 0).val) (hk1 : (k 1).val = (y 1).val) :
    (iblk m c 0 t : Vec Ideal S1024x512 .f32) y = (m ((c : Thread nD τ).loc main_arg0) : S16384x512.Idx → Elt Ideal .f32) k := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  unfold iblk
  rw [View.read_apply]
  show V m c main_arg0 _ = m (c.tc.loc main_arg0) _
  rw [V_main_arg0]
  refine congrArg _ ?_
  funext a
  apply Fin.ext
  match a with
  | ⟨0, _⟩ => show win0_0.index t 0 * 1024 + 1 * (y 0).val = (k 0).val; rw [e0_0, hk0]; omega
  | ⟨1, _⟩ => show win0_0.index t 1 * 512 + 1 * (y 1).val = (k 1).val; rw [e0_1, hk1]; omega

/-- Window 1 stages the packed first-layer weights whole: its one block, at block index (0, 0), is the array. -/
theorem iblk1_eq (c : Dev nD) (t : Fin cfg0.N) : (iblk m c 1 t : Vec Ideal S512x2048 .bf16) = V m c main_call0_v1 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_call0_v1 _ = V m c main_call0_v1 y
  refine congrArg _ ?_
  funext a
  apply Fin.ext
  match a with
  | ⟨0, _⟩ => show win0_1.index t 0 * 512 + 1 * (y 0).val = (y 0).val; rw [e1_0]; omega
  | ⟨1, _⟩ => show win0_1.index t 1 * 2048 + 1 * (y 1).val = (y 1).val; rw [e1_1]; omega

/-- Window 2 stages the mu branch's first bias whole: its one block, at block index (0, 0), is the array. -/
theorem iblk2_eq (c : Dev nD) (t : Fin cfg0.N) : (iblk m c 2 t : Vec Ideal S1x1024 .f32) = V m c main_arg2 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_arg2 _ = V m c main_arg2 y
  refine congrArg _ ?_
  funext a
  apply Fin.ext
  match a with
  | ⟨0, _⟩ => show win0_2.index t 0 * 1 + 1 * (y 0).val = (y 0).val; rw [e2_0]; omega
  | ⟨1, _⟩ => show win0_2.index t 1 * 1024 + 1 * (y 1).val = (y 1).val; rw [e2_1]; omega

/-- Window 3 stages the tau branch's first bias whole: its one block, at block index (0, 0), is the array. -/
theorem iblk3_eq (c : Dev nD) (t : Fin cfg0.N) : (iblk m c 3 t : Vec Ideal S1x1024 .f32) = V m c main_arg8 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_arg8 _ = V m c main_arg8 y
  refine congrArg _ ?_
  funext a
  apply Fin.ext
  match a with
  | ⟨0, _⟩ => show win0_3.index t 0 * 1 + 1 * (y 0).val = (y 0).val; rw [e3_0]; omega
  | ⟨1, _⟩ => show win0_3.index t 1 * 1024 + 1 * (y 1).val = (y 1).val; rw [e3_1]; omega

/-- Window 4 stages the mu branch's second-layer weights whole: its one block, at block index (0, 0), is the array. -/
theorem iblk4_eq (c : Dev nD) (t : Fin cfg0.N) : (iblk m c 4 t : Vec Ideal S1024x512 .bf16) = V m c main_call0_v2 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_call0_v2 _ = V m c main_call0_v2 y
  refine congrArg _ ?_
  funext a
  apply Fin.ext
  match a with
  | ⟨0, _⟩ => show win0_4.index t 0 * 1024 + 1 * (y 0).val = (y 0).val; rw [e4_0]; omega
  | ⟨1, _⟩ => show win0_4.index t 1 * 512 + 1 * (y 1).val = (y 1).val; rw [e4_1]; omega

/-- Window 5 stages the mu branch's second bias whole: its one block, at block index (0, 0), is the array. -/
theorem iblk5_eq (c : Dev nD) (t : Fin cfg0.N) : (iblk m c 5 t : Vec Ideal S1x512 .f32) = V m c main_arg4 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_arg4 _ = V m c main_arg4 y
  refine congrArg _ ?_
  funext a
  apply Fin.ext
  match a with
  | ⟨0, _⟩ => show win0_5.index t 0 * 1 + 1 * (y 0).val = (y 0).val; rw [e5_0]; omega
  | ⟨1, _⟩ => show win0_5.index t 1 * 512 + 1 * (y 1).val = (y 1).val; rw [e5_1]; omega

/-- Window 6 stages the tau branch's second-layer weights whole: its one block, at block index (0, 0), is the array. -/
theorem iblk6_eq (c : Dev nD) (t : Fin cfg0.N) : (iblk m c 6 t : Vec Ideal S1024x256 .bf16) = V m c main_call0_v3 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_call0_v3 _ = V m c main_call0_v3 y
  refine congrArg _ ?_
  funext a
  apply Fin.ext
  match a with
  | ⟨0, _⟩ => show win0_6.index t 0 * 1024 + 1 * (y 0).val = (y 0).val; rw [e6_0]; omega
  | ⟨1, _⟩ => show win0_6.index t 1 * 256 + 1 * (y 1).val = (y 1).val; rw [e6_1]; omega

/-- Window 7 stages the tau branch's second bias whole: its one block, at block index (0, 0), is the array. -/
theorem iblk7_eq (c : Dev nD) (t : Fin cfg0.N) : (iblk m c 7 t : Vec Ideal S1x256 .f32) = V m c main_arg10 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_arg10 _ = V m c main_arg10 y
  refine congrArg _ ?_
  funext a
  apply Fin.ext
  match a with
  | ⟨0, _⟩ => show win0_7.index t 0 * 1 + 1 * (y 0).val = (y 0).val; rw [e7_0]; omega
  | ⟨1, _⟩ => show win0_7.index t 1 * 256 + 1 * (y 1).val = (y 1).val; rw [e7_1]; omega

/-- Window 8 stages the mu branch's third-layer weights whole: its one block, at block index (0, 0), is the array. -/
theorem iblk8_eq (c : Dev nD) (t : Fin cfg0.N) : (iblk m c 8 t : Vec Ideal S512x256 .bf16) = V m c main_call0_v4 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_call0_v4 _ = V m c main_call0_v4 y
  refine congrArg _ ?_
  funext a
  apply Fin.ext
  match a with
  | ⟨0, _⟩ => show win0_8.index t 0 * 512 + 1 * (y 0).val = (y 0).val; rw [e8_0]; omega
  | ⟨1, _⟩ => show win0_8.index t 1 * 256 + 1 * (y 1).val = (y 1).val; rw [e8_1]; omega

/-- Window 9 stages the mu branch's third bias whole: its one block, at block index (0, 0), is the array. -/
theorem iblk9_eq (c : Dev nD) (t : Fin cfg0.N) : (iblk m c 9 t : Vec Ideal S1x256 .f32) = V m c main_arg6 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  unfold iblk
  rw [View.read_apply]
  show V m c main_arg6 _ = V m c main_arg6 y
  refine congrArg _ ?_
  funext a
  apply Fin.ext
  match a with
  | ⟨0, _⟩ => show win0_9.index t 0 * 1 + 1 * (y 0).val = (y 0).val; rw [e9_0]; omega
  | ⟨1, _⟩ => show win0_9.index t 1 * 256 + 1 * (y 1).val = (y 1).val; rw [e9_1]; omega

/-- What point `t` writes back to the mu window is block `t` of the mu branch of the argument arrays: the
    stored value is the mu branch of the loaded blocks, the x block is rows `1024·t …` of x, every other block
    is its whole array, and the branch of a block of rows is the block of the branch. -/
theorem flushed10_eq (c : Dev nD) (t : Fin cfg0.N) :
    (dats m 0 c).flushed 10 t = ((cfg0.win 10).blk t).view.read (Elt Ideal)
      (Cert.Spec.mu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed10]
  unfold out0_10
  rw [View.canon_unit_zero hz]
  simp only [View.ld_unit_zero (S := S1024x512) hz, View.ld_unit_zero (S := S512x2048) hz, View.ld_unit_zero (S := S1x1024) hz, View.ld_unit_zero (S := S1x512) hz, View.ld_unit_zero (S := S512x256) hz, View.ld_unit_zero (S := S1x256) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext j
  show k0_pay1 (F := Ideal) (k0_pay4 (iblk m c 0 t) (iblk m c 1 t) (iblk m c 2 t) (iblk m c 4 t) (iblk m c 5 t)) (iblk m c 8 t) (iblk m c 9 t) j
    = Cert.Spec.mu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb j)
  refine mu_at _ _ (m ((c : Thread nD τ).loc main_arg7)) _ _ _ _ _ _ _ _ _ _ _ _ t.val (iblk0_apply m c t)
    ((iblk1_eq m c t).trans (V_w1 m c)) ((iblk2_eq m c t).trans (V_main_arg2 m c)) ((iblk4_eq m c t).trans (V_w2m m c))
    ((iblk5_eq m c t).trans (V_main_arg4 m c)) ((iblk8_eq m c t).trans (V_w3m m c)) ((iblk9_eq m c t).trans (V_main_arg6 m c)) j _ ?_ ?_
  · show win0_10.index t 0 * 1024 + 1 * (j 0).val = 1024 * t.val + (j 0).val
    rw [e10_0]; omega
  · show win0_10.index t 1 * 256 + 1 * (j 1).val = (j 1).val
    rw [e10_1]; omega

/-- And what it writes back to the tau window is block `t` of the tau branch. -/
theorem flushed11_eq (c : Dev nD) (t : Fin cfg0.N) :
    (dats m 0 c).flushed 11 t = ((cfg0.win 11).blk t).view.read (Elt Ideal)
      (Cert.Spec.tau (m ((c : Thread nD τ).loc main_arg0)) (m ((c : Thread nD τ).loc main_arg7)) (m ((c : Thread nD τ).loc main_arg8)) (m ((c : Thread nD τ).loc main_arg9)) (m ((c : Thread nD τ).loc main_arg10))) := by
  rw [Value.flushed11]
  unfold out0_11
  rw [View.canon_unit_zero hz]
  simp only [View.ld_unit_zero (S := S1024x512) hz, View.ld_unit_zero (S := S512x2048) hz, View.ld_unit_zero (S := S1x1024) hz, View.ld_unit_zero (S := S1024x256) hz, View.ld_unit_zero (S := S1x256) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext j
  show k0_pay3 (F := Ideal) (iblk m c 0 t) (iblk m c 1 t) (iblk m c 3 t) (iblk m c 6 t) (iblk m c 7 t) j
    = Cert.Spec.tau (m ((c : Thread nD τ).loc main_arg0)) (m ((c : Thread nD τ).loc main_arg7)) (m ((c : Thread nD τ).loc main_arg8)) (m ((c : Thread nD τ).loc main_arg9)) (m ((c : Thread nD τ).loc main_arg10)) (((cfg0.win 11).blk t).view.emb j)
  refine tau_at _ (m ((c : Thread nD τ).loc main_arg1)) _ _ _ _ _ _ _ _ _ t.val (iblk0_apply m c t)
    ((iblk1_eq m c t).trans (V_w1 m c)) ((iblk3_eq m c t).trans (V_main_arg8 m c)) ((iblk6_eq m c t).trans (V_w2t m c))
    ((iblk7_eq m c t).trans (V_main_arg10 m c)) j _ ?_ ?_
  · show win0_11.index t 0 * 1024 + 1 * (j 0).val = 1024 * t.val + (j 0).val
    rw [e11_0]; omega
  · show win0_11.index t 1 * 256 + 1 * (j 1).val = (j 1).val
    rw [e11_1]; omega

/-- An index of the array is in point `t`'s block of window 10 iff each coordinate is in the block's range on its axis. -/
theorem mem_blk10 (t : Fin cfg0.N) (i : S16384x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v0_0).slice (win0_10.rect t)).set ↔ _
  rw [View.set_slice_whole, Rect.mem_set_unit]
  exact Iff.rfl

/-- Every index of the array is in some point's block: row `r` is in the block of point `r / 1024`. -/
theorem cover10 (i : S16384x256.Idx) : ∃ t : Fin cfg0.N, (cfg0.win 10).flush t = true ∧ i ∈ ((cfg0.win 10).blk t).view.set := by
  have hi0 : (i 0).val < 16384 := (i 0).isLt
  have hi1 : (i 1).val < 256 := (i 1).isLt
  obtain ⟨t, ht⟩ : ∃ t : Fin cfg0.N, t.val = (i 0).val / 1024 := ⟨⟨(i 0).val / 1024, by rw [show cfg0.N = 16 from N_0]; omega⟩, rfl⟩
  refine ⟨t, flush0_10 t, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  intro a
  match a with
  | ⟨0, _⟩ => show win0_10.index t 0 * 1024 ≤ (i 0).val ∧ (i 0).val < win0_10.index t 0 * 1024 + 1024; rw [e10_0, ht]; omega
  | ⟨1, _⟩ => show win0_10.index t 1 * 256 ≤ (i 1).val ∧ (i 1).val < win0_10.index t 1 * 256 + 256; rw [e10_1]; omega

/-- An index of the array is in point `t`'s block of window 11 iff each coordinate is in the block's range on its axis. -/
theorem mem_blk11 (t : Fin cfg0.N) (i : S16384x256.Idx) :
    i ∈ ((cfg0.win 11).blk t).view.set ↔ ∀ a : Fin 2, win0_11.index t a * S1024x256.size a ≤ (i a).val ∧ (i a).val < win0_11.index t a * S1024x256.size a + S1024x256.size a := by
  show i ∈ ((View.whole main_v0_1).slice (win0_11.rect t)).set ↔ _
  rw [View.set_slice_whole, Rect.mem_set_unit]
  exact Iff.rfl

/-- Every index of the array is in some point's block: row `r` is in the block of point `r / 1024`. -/
theorem cover11 (i : S16384x256.Idx) : ∃ t : Fin cfg0.N, (cfg0.win 11).flush t = true ∧ i ∈ ((cfg0.win 11).blk t).view.set := by
  have hi0 : (i 0).val < 16384 := (i 0).isLt
  have hi1 : (i 1).val < 256 := (i 1).isLt
  obtain ⟨t, ht⟩ : ∃ t : Fin cfg0.N, t.val = (i 0).val / 1024 := ⟨⟨(i 0).val / 1024, by rw [show cfg0.N = 16 from N_0]; omega⟩, rfl⟩
  refine ⟨t, flush0_11 t, ?_⟩
  rw [mem_blk11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  intro a
  match a with
  | ⟨0, _⟩ => show win0_11.index t 0 * 1024 ≤ (i 0).val ∧ (i 0).val < win0_11.index t 0 * 1024 + 1024; rw [e11_0, ht]; omega
  | ⟨1, _⟩ => show win0_11.index t 1 * 256 ≤ (i 1).val ∧ (i 1).val < win0_11.index t 1 * 256 + 256; rw [e11_1]; omega

/-- So the mu result array ends holding the mu branch of the arguments, -/
theorem final10 (c : Dev nD) : (dats m 0 c).arrAt 10 cfg0.N = Cert.Spec.mu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 10 (Cert.Spec.mu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed10_eq m c t) cover10

/-- and the tau result array the tau branch. -/
theorem final11 (c : Dev nD) : (dats m 0 c).arrAt 11 cfg0.N = Cert.Spec.tau (m ((c : Thread nD τ).loc main_arg0)) (m ((c : Thread nD τ).loc main_arg7)) (m ((c : Thread nD τ).loc main_arg8)) (m ((c : Thread nD τ).loc main_arg9)) (m ((c : Thread nD τ).loc main_arg10)) :=
  (dats m 0 c).arrAt_eq_of_cover 11 (Cert.Spec.tau (m ((c : Thread nD τ).loc main_arg0)) (m ((c : Thread nD τ).loc main_arg7)) (m ((c : Thread nD τ).loc main_arg8)) (m ((c : Thread nD τ).loc main_arg9)) (m ((c : Thread nD τ).loc main_arg10))) (fun t _ => flushed11_eq m c t) cover11

end Blocks

/-! ## The run, read -/

/-- The kernel's run with its two result arrays named by the specification: after the run the mu array holds
    the mu branch and the tau array the tau branch of the argument arrays, and the arguments are as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = Cert.Spec.mu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = Cert.Spec.tau (m ((c : Thread nD τ).loc main_arg0)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final10 m c), (h c).2.1.trans (final11 m c), (h c).2.2⟩)
    (Value.run_blocks m ρ)

end Cert.KernelIdeal.Bridge

end
-- ==== Proof.RefPayload.lean ====
/-
  The reference kernel's stored value as a function of the blocks it loads: the packed stack of three
  dense layers (relu on the first 1024 columns of the first layer and the clamped softplus on the rest; relu on
  the first 512 columns of the second layer and nothing on the rest; the third layer linear).
-/
import proofs.«174333_g2000702497057735_pallasbulk_324_8_alg».proof.Proof.Gen.ReferenceIdeal.Skeleton
import proofs.«174333_g2000702497057735_pallasbulk_324_8_alg».proof.Proof.Spec
import Idealize.ShloMosaic.Lib.ValueLayout
import Idealize.ShloMosaic.Lib.Pipeline.Value
import Idealize.ShloMosaic.PureOps.Ideal.Laws

noncomputable section

namespace Cert.ReferenceIdeal.Bridge

open Idealize.ShloMosaic Idealize.ShloMosaic.ValueIdx Cert.ReferenceIdeal Cert.ReferenceIdeal.Gen

/-- A product of an m×k by a k×n matrix with one contracted axis, accumulated into the zero splat, read at an index. -/
theorem matmul_single_apply {m k n : Nat}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A select on "k < n" as signed 32-bit words, both below 2^31, is the `if` on the naturals. -/
theorem select_slt {α : Type} (k n : Nat) (hk : k < 2 ^ 31) (hn : n < 2 ^ 31) (A B : α) :
    Scalar.select (IntOp.cmpi .slt (BitVec.ofNat 32 k) (BitVec.ofNat 32 n)) A B = if k < n then A else B := by
  have toInt_small : ∀ a : Nat, a < 2 ^ 31 → (BitVec.ofNat 32 a).toInt = (a : Int) := fun a ha => by
    have e : (BitVec.ofNat 32 a).toNat = a := by
      rw [BitVec.toNat_ofNat]; exact Nat.mod_eq_of_lt (by omega)
    rw [BitVec.toInt_eq_toNat_of_lt (by rw [e]; omega), e]
  have hiff : IntOp.cmpi .slt (BitVec.ofNat 32 k) (BitVec.ofNat 32 n) = 1#1 ↔ k < n := by
    rw [IntOp.cmpi_slt, toInt_small k hk, toInt_small n hn]; exact Int.ofNat_lt
  by_cases h : k < n
  · rw [if_pos h, hiff.mpr h, select_one]
  · rw [if_neg h, eq_zero_of_ne_one (fun e => h (hiff.mp e)), select_zero]

/-- A select on the ordered comparison "z > t" of extended reals is the `if` on `t < z`. -/
theorem select_ogt {α : Type} (z t : EReal) (A B : α) :
    Scalar.select (Ideal.cmp .ogt z t) A B = if t < z then A else B := by
  unfold Ideal.cmp
  by_cases h : t < z
  · rw [if_pos h]; simp only [h, decide_true]; exact select_one A B
  · rw [if_neg h]; simp only [h, decide_false]; exact select_zero A B

/-- The first layer's product at an index. -/
theorem matmul1_apply (A : FVec Ideal S512x512 .f32) (B : FVec Ideal S512x2048 .f32) (a : Fin 512) (b : Fin 2048) :
    matmul dot_S512x512_S512x2048_S512x2048_1_0_0_1_n_n none A B (constant (F := Ideal) S512x2048 .f32 0x00000000#32) (ix2 a b)
      = ∑ c : Fin 512, A (ix2 a c) * B (ix2 c b) :=
  matmul_single_apply _ none A B a b

/-- The second layer's product at an index. -/
theorem matmul2_apply (A : FVec Ideal S512x2048 .f32) (B : FVec Ideal S2048x768 .f32) (a : Fin 512) (b : Fin 768) :
    matmul dot_S512x2048_S2048x768_S512x768_1_0_0_1_n_n none A B (constant (F := Ideal) S512x768 .f32 0x00000000#32) (ix2 a b)
      = ∑ c : Fin 2048, A (ix2 a c) * B (ix2 c b) :=
  matmul_single_apply _ none A B a b

/-- The third layer's product at an index. -/
theorem matmul3_apply (A : FVec Ideal S512x768 .f32) (B : FVec Ideal S768x512 .f32) (a : Fin 512) (b : Fin 512) :
    matmul dot_S512x768_S768x512_S512x512_1_0_0_1_n_n none A B (constant (F := Ideal) S512x512 .f32 0x00000000#32) (ix2 a b)
      = ∑ c : Fin 768, A (ix2 a c) * B (ix2 c b) :=
  matmul_single_apply _ none A B a b

/-- The first layer before its activation: the product plus the bias row, a linear layer of the specification. -/
theorem pre1_apply (A : FVec Ideal S512x512 .f32) (B : FVec Ideal S512x2048 .f32) (bias : FVec Ideal S1x2048 .f32)
    (p : Fin 512) (k : Fin 2048) :
    addf (matmul dot_S512x512_S512x2048_S512x2048_1_0_0_1_n_n none A B (constant (F := Ideal) S512x2048 .f32 0x00000000#32))
        (broadcastTo S512x2048 bias broadcasts_S1x2048_S512x2048) (ix2 p k)
      = Cert.Spec.layer id A B bias (ix2 p k) := by
  rw [addf_apply, broadcastTo_1b_ab_apply, matmul1_apply]
  rfl

/-- The second layer before its activation. -/
theorem pre2_apply (A : FVec Ideal S512x2048 .f32) (B : FVec Ideal S2048x768 .f32) (bias : FVec Ideal S1x768 .f32)
    (p : Fin 512) (k : Fin 768) :
    addf (matmul dot_S512x2048_S2048x768_S512x768_1_0_0_1_n_n none A B (constant (F := Ideal) S512x768 .f32 0x00000000#32))
        (broadcastTo S512x768 bias broadcasts_S1x768_S512x768) (ix2 p k)
      = Cert.Spec.layer id A B bias (ix2 p k) := by
  rw [addf_apply, broadcastTo_1b_ab_apply, matmul2_apply]
  rfl

/-- The third layer, which has no activation. -/
theorem pre3_apply (A : FVec Ideal S512x768 .f32) (B : FVec Ideal S768x512 .f32) (bias : FVec Ideal S1x512 .f32)
    (p : Fin 512) (k : Fin 512) :
    addf (matmul dot_S512x768_S768x512_S512x512_1_0_0_1_n_n none A B (constant (F := Ideal) S512x512 .f32 0x00000000#32))
        (broadcastTo S512x512 bias broadcasts_S1x512_S512x512) (ix2 p k)
      = Cert.Spec.layer id A B bias (ix2 p k) := by
  rw [addf_apply, broadcastTo_1b_ab_apply, matmul3_apply]
  rfl

/-- The first layer's activation at an index, where the pre-activation there is `d`: relu on the columns below 1024,
    the clamped softplus on the others. -/
theorem act1_apply (z : FVec Ideal S512x2048 .f32) (p : Fin 512) (k : Fin 2048) (d : EReal) (hz : z (ix2 p k) = d) :
    select (cmpi .slt (iota .tc S512x2048 32 [1] iota_S512x2048_d1_w32) (broadcast S512x2048 1024#32))
        (maximumf z (broadcast S512x2048 (FloatOps.ofBits (F := Ideal) .f32 0x00000000#32)))
        (select (cmpf .ogt z (broadcast S512x2048 (FloatOps.ofBits (F := Ideal) .f32 0x41A00000#32))) z
          (log1p (exp (minimumf z (broadcast S512x2048 (FloatOps.ofBits (F := Ideal) .f32 0x41A00000#32)))))) (ix2 p k)
      = if k.val < 1024 then Cert.Spec.relu d else Cert.Spec.softplusClamped d := by
  have hi : iota .tc S512x2048 32 [1] iota_S512x2048_d1_w32 (ix2 p k) = BitVec.ofNat 32 k.val :=
    iota_single_apply _ _ _ _ _ _
  show Scalar.select (IntOp.cmpi .slt (iota .tc S512x2048 32 [1] iota_S512x2048_d1_w32 (ix2 p k)) (BitVec.ofNat 32 1024))
      (max (z (ix2 p k)) (Ideal.ofBits .f32 0x00000000#32))
      (Scalar.select (Ideal.cmp .ogt (z (ix2 p k)) (Ideal.ofBits .f32 0x41A00000#32)) (z (ix2 p k))
        (Ideal.log1p (Ideal.exp (min (z (ix2 p k)) (Ideal.ofBits .f32 0x41A00000#32))))) = _
  rw [hi, select_slt k.val 1024 (by have := k.isLt; omega) (by omega), select_ogt, Ideal.ofBits_zero_f32, hz]
  rfl

/-- The second layer's activation at an index, where the pre-activation there is `d`: relu on the columns below 512,
    nothing on the others. -/
theorem act2_apply (z : FVec Ideal S512x768 .f32) (p : Fin 512) (k : Fin 768) (d : EReal) (hz : z (ix2 p k) = d) :
    select (cmpi .slt (iota .tc S512x768 32 [1] iota_S512x768_d1_w32) (broadcast S512x768 512#32))
        (maximumf z (broadcast S512x768 (FloatOps.ofBits (F := Ideal) .f32 0x00000000#32))) z (ix2 p k)
      = if k.val < 512 then Cert.Spec.relu d else id d := by
  have hi : iota .tc S512x768 32 [1] iota_S512x768_d1_w32 (ix2 p k) = BitVec.ofNat 32 k.val :=
    iota_single_apply _ _ _ _ _ _
  show Scalar.select (IntOp.cmpi .slt (iota .tc S512x768 32 [1] iota_S512x768_d1_w32 (ix2 p k)) (BitVec.ofNat 32 512))
      (max (z (ix2 p k)) (Ideal.ofBits .f32 0x00000000#32)) (z (ix2 p k)) = _
  rw [hi, select_slt k.val 512 (by have := k.isLt; omega) (by omega), Ideal.ofBits_zero_f32, hz]
  rfl

/-- The stored value of a block of rows is the packed stack of the specification: the three products are sums over
    the contracted coordinate, the bias rows are added in every row, and the per-column selects are the
    specification's choice of activation by column. -/
theorem pay_packed (x0 : Vec Ideal S512x512 .f32) (x1 : Vec Ideal S512x2048 .f32) (x2 : Vec Ideal S1x2048 .f32)
    (x3 : Vec Ideal S2048x768 .f32) (x4 : Vec Ideal S1x768 .f32) (x5 : Vec Ideal S768x512 .f32) (x6 : Vec Ideal S1x512 .f32) :
    k0_pay1 (F := Ideal) (k0_pay2 x0 x1 x2 x3 x4 x5) x6 = Cert.Spec.packed x0 x1 x2 x3 x4 x5 x6 := by
  funext j
  obtain ⟨p, q, rfl⟩ : ∃ (p : Fin 512) (q : Fin 512), j = ix2 p q := ⟨j 0, j 1, eq_ix2 j⟩
  unfold k0_pay1 k0_pay2
  dsimp only
  simp only [shapeCast_self]
  rw [pre3_apply]
  refine Cert.Spec.layer_row id _ _ x5 x6 p p q fun c => ?_
  refine act2_apply _ p c _ ?_
  rw [pre2_apply]
  refine Cert.Spec.layer_row id _ _ x3 x4 p p c fun k => ?_
  refine act1_apply _ p k _ ?_
  rw [pre1_apply]
  rfl

end Cert.ReferenceIdeal.Bridge

end
-- ==== Proof.RefRun.lean ====
/-
  The reference program's run, read: its two result arrays are the left and the right 256 columns of the packed
  stack of three dense layers over all 16384 input rows.

  The region works on blocks of 512 rows. At every grid point the six packed operands' windows hold their whole
  arrays and the input window holds rows 512·t … 512·t + 511; the stack computes each output row from the same
  input row alone (`packed_row`), so what a point writes back is block `t` of the stack over all rows
  (`flushed_eq`). The 32 blocks cover the result array (row r lies in block r / 512), which therefore ends
  holding the stack over all rows (`final7`); the two lines after the region cut it into its column halves
  (`tail_v30`, `tail_v31`), and no line writes an argument.
-/
import proofs.«174333_g2000702497057735_pallasbulk_324_8_alg».proof.Proof.Gen.ReferenceIdeal.Frame
import proofs.«174333_g2000702497057735_pallasbulk_324_8_alg».proof.Proof.RefPayload
import proofs.«174333_g2000702497057735_pallasbulk_324_8_alg».proof.Proof.Spec
import Idealize.ShloMosaic.Lib.Pipeline.Value
import Idealize.ShloMosaic.Lib.ValueLayout
import Idealize.ShloMosaic.Lib.ValueIdx
import Idealize.ShloMosaic.Lib.Tactic

noncomputable section

namespace Cert.ReferenceIdeal.Bridge

open Idealize.ShloMosaic Idealize.ShloMosaic.TcCoe Idealize.ShloMosaic.ValueIdx Idealize.SL.Sem
open Cert.ReferenceIdeal Cert.ReferenceIdeal.Gen
open Idealize.ShloMosaic.Pipeline (Dat)

/-- The packed stack over all 16384 rows, of the operands as the region finds them. -/
def P (m : (ℓ : Loc nD τ sig) → Buf (Elt Ideal) ℓ) (c : Dev nD) : Cert.Spec.Mat 16384 512 :=
  Cert.Spec.packed (m ((c : Thread nD τ).loc main_arg0)) (Gen.V (F := Ideal) m c main_v0) (Gen.V (F := Ideal) m c main_v1) (Gen.V (F := Ideal) m c main_v10) (Gen.V (F := Ideal) m c main_v11) (Gen.V (F := Ideal) m c main_v26) (Gen.V (F := Ideal) m c main_v28)

/-! ## The packed stack row by row -/

/-- A layer with a per-column activation, too, depends in a row on the input only through that row. -/
theorem layerSel_row {n n' a b : ℕ} (s : ℕ) (actL actR : EReal → EReal) (x : Cert.Spec.Mat n a) (x' : Cert.Spec.Mat n' a)
    (w : Cert.Spec.Mat a b) (bias : Cert.Spec.Mat 1 b) (r : Fin n) (r' : Fin n') (k : Fin b)
    (h : ∀ d : Fin a, x (ix2 r d) = x' (ix2 r' d)) :
    Cert.Spec.layerSel s actL actR x w bias (ix2 r k) = Cert.Spec.layerSel s actL actR x' w bias (ix2 r' k) := by
  show (if k.val < s then actL (Cert.Spec.dense x w bias r k) else actR (Cert.Spec.dense x w bias r k))
    = (if k.val < s then actL (Cert.Spec.dense x' w bias r' k) else actR (Cert.Spec.dense x' w bias r' k))
  unfold Cert.Spec.dense
  rw [Finset.sum_congr rfl fun d _ => by rw [h d]]

/-- So the packed stack of a block of rows is the block of the packed stack. -/
theorem packed_row {n n' : ℕ} (x : Cert.Spec.Mat n 512) (x' : Cert.Spec.Mat n' 512) (W1 : Cert.Spec.Mat 512 2048)
    (B1 : Cert.Spec.Mat 1 2048) (W2 : Cert.Spec.Mat 2048 768) (B2 : Cert.Spec.Mat 1 768) (W3 : Cert.Spec.Mat 768 512)
    (B3 : Cert.Spec.Mat 1 512) (r : Fin n) (r' : Fin n') (q : Fin 512) (h : ∀ d : Fin 512, x (ix2 r d) = x' (ix2 r' d)) :
    Cert.Spec.packed x W1 B1 W2 B2 W3 B3 (ix2 r q) = Cert.Spec.packed x' W1 B1 W2 B2 W3 B3 (ix2 r' q) :=
  Cert.Spec.layer_row _ _ _ _ _ _ _ _ fun k => layerSel_row _ _ _ _ _ _ _ _ _ _ fun k' => layerSel_row _ _ _ _ _ _ _ _ _ _ h

/-- Block `tv` of 512 rows: if the block `x0` holds rows `512·tv …` of `X` and the other operands are the whole
    arrays, the packed stack of the block at `j` is the packed stack of all rows at the index `i` that `j` sits at. -/
theorem packed_block (X : Cert.Spec.Mat 16384 512) (x0 : Cert.Spec.Mat 512 512)
    (W1 W1' : Cert.Spec.Mat 512 2048) (B1 B1' : Cert.Spec.Mat 1 2048) (W2 W2' : Cert.Spec.Mat 2048 768)
    (B2 B2' : Cert.Spec.Mat 1 768) (W3 W3' : Cert.Spec.Mat 768 512) (B3 B3' : Cert.Spec.Mat 1 512)
    (e1 : W1' = W1) (e2 : B1' = B1) (e3 : W2' = W2) (e4 : B2' = B2) (e5 : W3' = W3) (e6 : B3' = B3) (tv : ℕ)
    (hx : ∀ (p : Fin 512) (d : Fin 512) (k : Fin 16384), k.val = 512 * tv + p.val → x0 (ix2 p d) = X (ix2 k d))
    (j : (⟨2, ![512, 512]⟩ : Shape).Idx) (i : (⟨2, ![16384, 512]⟩ : Shape).Idx)
    (h0 : (i 0).val = 512 * tv + (j 0).val) (h1 : (i 1).val = (j 1).val) :
    Cert.Spec.packed x0 W1' B1' W2' B2' W3' B3' j = Cert.Spec.packed X W1 B1 W2 B2 W3 B3 i := by
  subst e1 e2 e3 e4 e5 e6
  obtain ⟨p, q, rfl⟩ : ∃ (p : Fin 512) (q : Fin 512), j = ix2 p q := ⟨j 0, j 1, eq_ix2 j⟩
  obtain ⟨k, q', rfl⟩ : ∃ (k : Fin 16384) (q' : Fin 512), i = ix2 k q' := ⟨i 0, i 1, eq_ix2 i⟩
  obtain rfl : q' = q := Fin.ext h1
  exact packed_row x0 X _ _ _ _ _ _ p k q' fun d => hx p d k h0

/-! ## From the blocks to the array -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 points: the row-blocked windows (the input rows, the result) sit at block
    `(t, 0)`, every other window at block `(0, 0)`. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The first layer's packed weights are one block: at every point the window's block is the whole array. -/
theorem blk_W1 (c : Dev nD) (t : Fin cfg0.N) : (iblk m c 1 t : Vec Ideal S512x2048 .f32) = V m c main_v0 := by
  have f0 : win0_1.index t (0 : Fin 2) = 0 := (idx_facts t).2.2.2.2.1
  have f1 : win0_1.index t (1 : Fin 2) = 0 := (idx_facts t).2.2.2.2.2.1
  funext y
  show V m c main_v0 (((cfg0.win 1).blk t).view.emb y) = V m c main_v0 y
  refine congrArg (V m c main_v0) (funext fun a => Fin.ext ?_)
  match a with
  | ⟨0, _⟩ => show win0_1.index t (0 : Fin 2) * 512 + 1 * (y 0).val = (y 0).val; rw [f0]; omega
  | ⟨1, _⟩ => show win0_1.index t (1 : Fin 2) * 2048 + 1 * (y 1).val = (y 1).val; rw [f1]; omega

/-- Likewise the first layer's packed bias. -/
theorem blk_B1 (c : Dev nD) (t : Fin cfg0.N) : (iblk m c 2 t : Vec Ideal S1x2048 .f32) = V m c main_v1 := by
  have f0 : win0_2.index t (0 : Fin 2) = 0 := (idx_facts t).2.2.2.2.2.2.1
  have f1 : win0_2.index t (1 : Fin 2) = 0 := (idx_facts t).2.2.2.2.2.2.2.1
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; rw [f0]; omega
  | ⟨1, _⟩ => show win0_2.index t (1 : Fin 2) * 2048 + 1 * (y 1).val = (y 1).val; rw [f1]; omega

/-- Likewise the second layer's packed weights. -/
theorem blk_W2 (c : Dev nD) (t : Fin cfg0.N) : (iblk m c 3 t : Vec Ideal S2048x768 .f32) = V m c main_v10 := by
  have f0 : win0_3.index t (0 : Fin 2) = 0 := (idx_facts t).2.2.2.2.2.2.2.2.1
  have f1 : win0_3.index t (1 : Fin 2) = 0 := (idx_facts t).2.2.2.2.2.2.2.2.2.1
  funext y
  show V m c main_v10 (((cfg0.win 3).blk t).view.emb y) = V m c main_v10 y
  refine congrArg (V m c main_v10) (funext fun a => Fin.ext ?_)
  match a with
  | ⟨0, _⟩ => show win0_3.index t (0 : Fin 2) * 2048 + 1 * (y 0).val = (y 0).val; rw [f0]; omega
  | ⟨1, _⟩ => show win0_3.index t (1 : Fin 2) * 768 + 1 * (y 1).val = (y 1).val; rw [f1]; omega

/-- Likewise the second layer's packed bias. -/
theorem blk_B2 (c : Dev nD) (t : Fin cfg0.N) : (iblk m c 4 t : Vec Ideal S1x768 .f32) = V m c main_v11 := by
  have f0 : win0_4.index t (0 : Fin 2) = 0 := (idx_facts t).2.2.2.2.2.2.2.2.2.2.1
  have f1 : win0_4.index t (1 : Fin 2) = 0 := (idx_facts t).2.2.2.2.2.2.2.2.2.2.2.1
  funext y
  show V m c main_v11 (((cfg0.win 4).blk t).view.emb y) = V m c main_v11 y
  refine congrArg (V m c main_v11) (funext fun a => Fin.ext ?_)
  match a with
  | ⟨0, _⟩ => show win0_4.index t (0 : Fin 2) * 1 + 1 * (y 0).val = (y 0).val; rw [f0]; omega
  | ⟨1, _⟩ => show win0_4.index t (1 : Fin 2) * 768 + 1 * (y 1).val = (y 1).val; rw [f1]; omega

/-- Likewise the third layer's packed weights. -/
theorem blk_W3 (c : Dev nD) (t : Fin cfg0.N) : (iblk m c 5 t : Vec Ideal S768x512 .f32) = V m c main_v26 := by
  have f0 : win0_5.index t (0 : Fin 2) = 0 := (idx_facts t).2.2.2.2.2.2.2.2.2.2.2.2.1
  have f1 : win0_5.index t (1 : Fin 2) = 0 := (idx_facts t).2.2.2.2.2.2.2.2.2.2.2.2.2.1
  funext y
  show V m c main_v26 (((cfg0.win 5).blk t).view.emb y) = V m c main_v26 y
  refine congrArg (V m c main_v26) (funext fun a => Fin.ext ?_)
  match a with
  | ⟨0, _⟩ => show win0_5.index t (0 : Fin 2) * 768 + 1 * (y 0).val = (y 0).val; rw [f0]; omega
  | ⟨1, _⟩ => show win0_5.index t (1 : Fin 2) * 512 + 1 * (y 1).val = (y 1).val; rw [f1]; omega

/-- Likewise the third layer's packed bias. -/
theorem blk_B3 (c : Dev nD) (t : Fin cfg0.N) : (iblk m c 6 t : Vec Ideal S1x512 .f32) = V m c main_v28 := by
  have f0 : win0_6.index t (0 : Fin 2) = 0 := (idx_facts t).2.2.2.2.2.2.2.2.2.2.2.2.2.2.1
  have f1 : win0_6.index t (1 : Fin 2) = 0 := (idx_facts t).2.2.2.2.2.2.2.2.2.2.2.2.2.2.2
  funext y
  show V m c main_v28 (((cfg0.win 6).blk t).view.emb y) = V m c main_v28 y
  refine congrArg (V m c main_v28) (funext fun a => Fin.ext ?_)
  match a with
  | ⟨0, _⟩ => show win0_6.index t (0 : Fin 2) * 1 + 1 * (y 0).val = (y 0).val; rw [f0]; omega
  | ⟨1, _⟩ => show win0_6.index t (1 : Fin 2) * 512 + 1 * (y 1).val = (y 1).val; rw [f1]; omega

/-- The input window's block at point `t` is rows `512·t … 512·t + 511` of the input as launched. -/
theorem blk_x (c : Dev nD) (t : Fin cfg0.N) (p : Fin 512) (d : Fin 512) (k : Fin 16384) (hk : k.val = 512 * t.val + p.val) :
    (iblk m c 0 t : Vec Ideal S512x512 .f32) (ix2 p d) = (m ((c : Thread nD τ).loc main_arg0) : S16384x512.Idx → EReal) (ix2 k d) := by
  have a0 : win0_0.index t (0 : Fin 2) = t.val := (idx_facts t).1
  have a1 : win0_0.index t (1 : Fin 2) = 0 := (idx_facts t).2.1
  show V m c main_arg0 (((cfg0.win 0).blk t).view.emb (ix2 p d)) = _
  refine (congrFun (V_main_arg0 m c) _).trans (congrArg (m ((c : Thread nD τ).loc main_arg0)) (funext fun a => Fin.ext ?_))
  match a with
  | ⟨0, _⟩ => show win0_0.index t (0 : Fin 2) * 512 + 1 * p.val = k.val; rw [a0, hk]; omega
  | ⟨1, _⟩ => show win0_0.index t (1 : Fin 2) * 512 + 1 * d.val = d.val; rw [a1]; omega

/-- WHAT POINT `t` WRITES BACK is block `t` of the packed stack over all rows: the whole-array windows' blocks are
    their arrays, the row window's block is rows `512·t …` of the input, and the stack works row by row. -/
theorem flushed_eq (c : Dev nD) (t : Fin cfg0.N) :
    (dats m 0 c).flushed 7 t = ((cfg0.win 7).blk t).view.read (Elt Ideal) (P m c) := by
  show (cfg0.win 7).cut (grid0.coords t) ((dats m 0 c).after 7 t) = _
  rw [after0_7]
  unfold out0_7
  rw [View.canon_unit_zero hz]
  simp only [View.ld_unit_zero (S := S512x512) hz, View.ld_unit_zero (S := S512x2048) hz, View.ld_unit_zero (S := S1x2048) hz,
    View.ld_unit_zero (S := S2048x768) hz, View.ld_unit_zero (S := S1x768) hz, View.ld_unit_zero (S := S768x512) hz,
    View.ld_unit_zero (S := S1x512) hz]
  rw [pay_packed]
  have o0 : win0_7.index t (0 : Fin 2) = t.val := (idx_facts t).2.2.1
  have o1 : win0_7.index t (1 : Fin 2) = 0 := (idx_facts t).2.2.2.1
  funext j
  show Cert.Spec.packed (iblk m c 0 t) (iblk m c 1 t) (iblk m c 2 t) (iblk m c 3 t) (iblk m c 4 t) (iblk m c 5 t) (iblk m c 6 t) j
    = P m c (((cfg0.win 7).blk t).view.emb j)
  unfold P
  refine packed_block (m ((c : Thread nD τ).loc main_arg0)) (iblk m c 0 t) (V m c main_v0) (iblk m c 1 t) (V m c main_v1) (iblk m c 2 t)
    (V m c main_v10) (iblk m c 3 t) (V m c main_v11) (iblk m c 4 t) (V m c main_v26) (iblk m c 5 t) (V m c main_v28) (iblk m c 6 t)
    (blk_W1 m c t) (blk_B1 m c t) (blk_W2 m c t) (blk_B2 m c t) (blk_W3 m c t) (blk_B3 m c t) t.val (blk_x m c t) j (((cfg0.win 7).blk t).view.emb j) ?_ ?_
  · show win0_7.index t (0 : Fin 2) * 512 + 1 * (j 0).val = 512 * t.val + (j 0).val
    rw [o0]; omega
  · show win0_7.index t (1 : Fin 2) * 512 + 1 * (j 1).val = (j 1).val
    rw [o1]; omega

/-- An index of the result array is in point `t`'s block iff each coordinate is in the block's range on its axis. -/
theorem mem_blk (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v29).slice (win0_7.rect t)).set ↔ _
  rw [View.set_slice_whole, Rect.mem_set_unit]
  exact Iff.rfl

/-- Every index of the result array is in some point's block: row `r` is in the block of point `r / 512`. -/
theorem cover (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 32 := N_0
  have ht : (i 0).val / 512 < cfg0.N := by rw [hN]; omega
  have o0 : win0_7.index ⟨(i 0).val / 512, ht⟩ (0 : Fin 2) = (i 0).val / 512 := (idx_facts ⟨(i 0).val / 512, ht⟩).2.2.1
  have o1 : win0_7.index ⟨(i 0).val / 512, ht⟩ (1 : Fin 2) = 0 := (idx_facts ⟨(i 0).val / 512, ht⟩).2.2.2.1
  refine ⟨⟨(i 0).val / 512, ht⟩, flush0_7 _, ?_⟩
  rw [mem_blk]
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [o0]; omega
  | ⟨1, _⟩ =>
    show win0_7.index ⟨(i 0).val / 512, ht⟩ (1 : Fin 2) * 512 ≤ (i 1).val ∧ (i 1).val < win0_7.index ⟨(i 0).val / 512, ht⟩ (1 : Fin 2) * 512 + 512
    rw [o1]; omega

/-- So the result array of the region ends holding the packed stack over all rows. -/
theorem final7 (c : Dev nD) : (dats m 0 c).arrAt 7 cfg0.N = P m c :=
  (dats m 0 c).arrAt_eq_of_cover 7 (P m c) (fun t _ => flushed_eq m c t) cover

/-! ## The two slices after the region -/

/-- The region's result array, as the lines after the region find it. -/
theorem tail_arr (c : Dev nD) :
    Pipeline.withArrays (cfgs 0).spec c (V0 m c) (fun w => (dats m 0 c).arrAt w (cfgs 0).N) (Proc.devRef .tc main_v29) = P m c :=
  (Pipeline.withArrays_arr spec0 launch0.win.arr_inj c _ _ 7).trans (final7 m c)

/-- The first result is the left 256 columns of the packed stack. -/
theorem tail_v30 (c : Dev nD) :
    Pipeline.afterTail₀ cfgs (dats m) 0 (V0 m) [hostOps1] c main_v30 = Cert.Spec.leftCols 256 256 512 rfl (P m c) := by
  unfold Pipeline.afterTail₀
  show StableHlo.after hostOps1 _ (Proc.devRef .tc main_v30) = _
  after_results
  rw [tail_arr m c]
  funext i
  obtain ⟨a, j, rfl⟩ : ∃ (a : Fin 16384) (j : Fin 256), i = ix2 a j := ⟨i 0, i 1, eq_ix2 i⟩
  exact slice2_axis1_apply 0 (P m c) _ a j ⟨j.val, by omega⟩ (Nat.zero_add _).symm

/-- The second result is its right 256 columns. -/
theorem tail_v31 (c : Dev nD) :
    Pipeline.afterTail₀ cfgs (dats m) 0 (V0 m) [hostOps1] c main_v31 = Cert.Spec.rightCols 256 256 512 rfl (P m c) := by
  unfold Pipeline.afterTail₀
  show StableHlo.after hostOps1 _ (Proc.devRef .tc main_v31) = _
  after_results
  rw [tail_arr m c]
  funext i
  obtain ⟨a, j, rfl⟩ : ∃ (a : Fin 16384) (j : Fin 256), i = ix2 a j := ⟨i 0, i 1, eq_ix2 i⟩
  exact slice2_axis1_apply 256 (P m c) _ a j ⟨256 + j.val, by omega⟩ rfl

/-! ## The run, read -/

/-- The frame run re-posted: the two results at the column halves of the packed stack, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v30) = Cert.Spec.leftCols 256 256 512 rfl (P m c)
      ∧ r.2.mem ((c : Thread nD τ).loc main_v31) = Cert.Spec.rightCols 256 256 512 rfl (P m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c =>
    ⟨((h c).2 main_v30 (Pipeline.mem_restRefs_of main_v30 (by decide) (by decide))).trans (tail_v30 m c),
      ((h c).2 main_v31 (Pipeline.mem_restRefs_of main_v31 (by decide) (by decide))).trans (tail_v31 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.ReferenceIdeal.Bridge

end
-- ==== Proof.LibScatterWindow.lean ====
/-
  A window overwrite as a pointwise function.

  `Host.scatter d (fun _ b => b) x idx upd` with ONE index vector `idx` holding a start `(r0, c0)`, both
  update axes window axes, no inserted axis and the identity map from index components to operand axes
  overwrites the `a × b` window of the `R × C` operand `x` that starts at `(r0, c0)` with the update `upd`.
  The operation is a left fold over the update positions; this module proves that, for a window that fits
  (`r0 + a ≤ R`, `c0 + b ≤ C`) and a start read as non-negative numbers, the folded function at an operand
  index `i` is the update at `(i 0 - r0, i 1 - c0)` when `i` lies in the window and `x i` when it does not.

  Three steps: (1) a fold of "overwrite position `g n` with `v n`, when there is one" over any list reads at `i`
  as the common value of the positions sent to `i` when there is one, and as the start function when there is
  none; (2) for these dimension numbers update index `j` is sent to `(r0 + j 0, c0 + j 1)`; (3) that map is
  injective and its image is the window.
-/
import Idealize.ShloMosaic.PureOps.ShapeOps
import Idealize.ShloMosaic.Lib.ValueIdx

namespace Cert.ScatterWindow

open Idealize.ShloMosaic Idealize.ShloMosaic.ValueIdx

/-! ## The fold alone -/

section Fold

variable {ι κ α : Type} (g : κ → Option ι) (v : κ → α) (step : (ι → α) → κ → ι → α)

/-- No position of the list is sent to `i`: the fold leaves `x i`. -/
theorem foldl_miss [DecidableEq ι]
    (hs : ∀ r n i', g n = some i' → step r n = fun k => if k = i' then v n else r k)
    (hn : ∀ r n, g n = none → step r n = r)
    (l : List κ) (x : ι → α) (i : ι) (hno : ∀ n ∈ l, g n ≠ some i) : l.foldl step x i = x i := by
  induction l generalizing x with
  | nil => rfl
  | cons n l ih =>
    rw [List.foldl_cons, ih (step x n) fun m hm => hno m (List.mem_cons_of_mem _ hm)]
    have hne := hno n List.mem_cons_self
    cases hg : g n with
    | none => rw [hn x n hg]
    | some i' =>
      rw [hs x n i' hg]
      have : i ≠ i' := fun e => hne (by rw [hg, e])
      exact if_neg this

/-- Some position of the list is sent to `i`, and all that are carry the value `a`: the fold leaves `a`. -/
theorem foldl_hit [DecidableEq ι]
    (hs : ∀ r n i', g n = some i' → step r n = fun k => if k = i' then v n else r k)
    (hn : ∀ r n, g n = none → step r n = r)
    (l : List κ) (x : ι → α) (i : ι) (a : α) (hex : ∃ n ∈ l, g n = some i)
    (hall : ∀ n ∈ l, g n = some i → v n = a) : l.foldl step x i = a := by
  induction l using List.reverseRecOn with
  | nil => obtain ⟨n, hn', _⟩ := hex; cases hn'
  | append_singleton l n ih =>
    rw [List.foldl_append, List.foldl_cons, List.foldl_nil]
    have hall' : ∀ m ∈ l, g m = some i → v m = a := fun m hm => hall m (List.mem_append_left _ hm)
    cases hg : g n with
    | none =>
      rw [hn _ n hg]
      refine ih ?_ hall'
      obtain ⟨m, hm, hgm⟩ := hex
      rcases List.mem_append.1 hm with hm | hm
      · exact ⟨m, hm, hgm⟩
      · rw [List.mem_singleton.1 hm, hg] at hgm; cases hgm
    | some i' =>
      rw [hs _ n i' hg]
      by_cases hi : i = i'
      · show (if i = i' then v n else _) = a
        rw [if_pos hi]
        exact hall n (List.mem_append_right _ List.mem_cons_self) (by rw [hg, hi])
      · show (if i = i' then v n else _) = a
        rw [if_neg hi]
        refine ih ?_ hall'
        obtain ⟨m, hm, hgm⟩ := hex
        rcases List.mem_append.1 hm with hm | hm
        · exact ⟨m, hm, hgm⟩
        · rw [List.mem_singleton.1 hm, hg] at hgm
          exact absurd (Option.some.inj hgm).symm hi

end Fold

/-! ## Where an update index lands -/

section Land

variable {R C a b w : ℕ}

/-- The start component for operand axis 0 is the index vector's first word, read signed. -/
theorem start_zero (d : ScatterDims ⟨2, ![R, C]⟩ ⟨1, ![2]⟩ ⟨2, ![a, b]⟩)
    (h3 : d.scatterDimsToOperandDims = [0, 1]) (h4 : d.indexVectorDim = 0)
    (idx : IVec ⟨1, ![2]⟩ w) (j : (⟨2, ![a, b]⟩ : Shape).Idx) :
    d.start j idx 0 = (idx (ix1 0)).toInt := by
  obtain ⟨uw, iw, sd, iv, wf⟩ := d
  dsimp only at h3 h4
  subst h3 h4
  unfold ScatterDims.start
  rw [dif_pos (show (0 : Fin 2) ∈ ([0, 1] : List (Fin 2)) from List.mem_cons_self)]
  congr 2
  funext k
  match k with
  | ⟨0, hk⟩ =>
    unfold ScatterDims.siIdx
    rw [dif_pos rfl]
    rfl

/-- The start component for operand axis 1 is the index vector's second word, read signed. -/
theorem start_one (d : ScatterDims ⟨2, ![R, C]⟩ ⟨1, ![2]⟩ ⟨2, ![a, b]⟩)
    (h3 : d.scatterDimsToOperandDims = [0, 1]) (h4 : d.indexVectorDim = 0)
    (idx : IVec ⟨1, ![2]⟩ w) (j : (⟨2, ![a, b]⟩ : Shape).Idx) :
    d.start j idx 1 = (idx (ix1 1)).toInt := by
  obtain ⟨uw, iw, sd, iv, wf⟩ := d
  dsimp only at h3 h4
  subst h3 h4
  unfold ScatterDims.start
  rw [dif_pos (show (1 : Fin 2) ∈ ([0, 1] : List (Fin 2)) from List.mem_cons_of_mem _ List.mem_cons_self)]
  congr 2
  funext k
  match k with
  | ⟨0, hk⟩ =>
    unfold ScatterDims.siIdx
    rw [dif_pos rfl]
    rfl

/-- With no inserted axis the window coordinate on operand axis 0 is the update index's first coordinate. -/
theorem window_zero (d : ScatterDims ⟨2, ![R, C]⟩ ⟨1, ![2]⟩ ⟨2, ![a, b]⟩)
    (h1 : d.updateWindowDims = [0, 1]) (h2 : d.insertedWindowDims = [])
    (j : (⟨2, ![a, b]⟩ : Shape).Idx) : d.window j 0 = (j 0).val := by
  obtain ⟨uw, iw, sd, iv, wf⟩ := d
  dsimp only at h1 h2
  subst h1 h2
  unfold ScatterDims.window
  have hk : (⟨2, ![R, C]⟩ : Shape).kept [] = [0, 1] := rfl
  rw [dif_pos (show (0 : Fin 2) ∈ (⟨2, ![R, C]⟩ : Shape).kept [] from hk ▸ List.mem_cons_self)]
  rfl

/-- With no inserted axis the window coordinate on operand axis 1 is the update index's second coordinate. -/
theorem window_one (d : ScatterDims ⟨2, ![R, C]⟩ ⟨1, ![2]⟩ ⟨2, ![a, b]⟩)
    (h1 : d.updateWindowDims = [0, 1]) (h2 : d.insertedWindowDims = [])
    (j : (⟨2, ![a, b]⟩ : Shape).Idx) : d.window j 1 = (j 1).val := by
  obtain ⟨uw, iw, sd, iv, wf⟩ := d
  dsimp only at h1 h2
  subst h1 h2
  unfold ScatterDims.window
  have hk : (⟨2, ![R, C]⟩ : Shape).kept [] = [0, 1] := rfl
  rw [dif_pos (show (1 : Fin 2) ∈ (⟨2, ![R, C]⟩ : Shape).kept [] from hk ▸ List.mem_cons_of_mem _ List.mem_cons_self)]
  rfl

/-- Update index `j` lands at `(r0 + j 0, c0 + j 1)`: the window fits, so the position is inside the operand. -/
theorem resultIdx?_eq (d : ScatterDims ⟨2, ![R, C]⟩ ⟨1, ![2]⟩ ⟨2, ![a, b]⟩)
    (h1 : d.updateWindowDims = [0, 1]) (h2 : d.insertedWindowDims = [])
    (h3 : d.scatterDimsToOperandDims = [0, 1]) (h4 : d.indexVectorDim = 0)
    (idx : IVec ⟨1, ![2]⟩ w) (r0 c0 : ℕ)
    (hr : (idx (ix1 0)).toInt = (r0 : ℤ)) (hc : (idx (ix1 1)).toInt = (c0 : ℤ))
    (hR : r0 + a ≤ R) (hC : c0 + b ≤ C) (j : (⟨2, ![a, b]⟩ : Shape).Idx) :
    d.resultIdx? j idx
      = some (ix2 ⟨r0 + (j 0).val, by have := idx2_lt0 j; omega⟩ ⟨c0 + (j 1).val, by have := idx2_lt1 j; omega⟩) := by
  have hj0 := idx2_lt0 j
  have hj1 := idx2_lt1 j
  have e0 : d.start j idx 0 + (d.window j 0 : ℤ) = ((r0 + (j 0).val : ℕ) : ℤ) := by
    rw [start_zero d h3 h4, window_zero d h1 h2, hr]; push_cast; rfl
  have e1 : d.start j idx 1 + (d.window j 1 : ℤ) = ((c0 + (j 1).val : ℕ) : ℤ) := by
    rw [start_one d h3 h4, window_one d h1 h2, hc]; push_cast; rfl
  have hs0 : (⟨2, ![R, C]⟩ : Shape).size 0 = R := rfl
  have hs1 : (⟨2, ![R, C]⟩ : Shape).size 1 = C := rfl
  unfold ScatterDims.resultIdx?
  rw [dif_pos (Fin.forall_fin_two.2 ⟨by rw [e0, hs0]; omega, by rw [e1, hs1]; omega⟩)]
  refine congrArg some (funext ?_)
  refine Fin.forall_fin_two.2 ⟨Fin.ext ?_, Fin.ext ?_⟩
  · show (d.start j idx 0 + (d.window j 0 : ℤ)).toNat = r0 + (j 0).val
    rw [e0]; exact Int.toNat_natCast _
  · show (d.start j idx 1 + (d.window j 1 : ℤ)).toNat = c0 + (j 1).val
    rw [e1]; exact Int.toNat_natCast _

/-! ## The window overwrite, pointwise -/

variable {α : Type}

/-- Inside the window the result is the update, read at the position relative to the window's start. -/
theorem scatter_window_inside (d : ScatterDims ⟨2, ![R, C]⟩ ⟨1, ![2]⟩ ⟨2, ![a, b]⟩)
    (h1 : d.updateWindowDims = [0, 1]) (h2 : d.insertedWindowDims = [])
    (h3 : d.scatterDimsToOperandDims = [0, 1]) (h4 : d.indexVectorDim = 0)
    (x : (⟨2, ![R, C]⟩ : Shape).Idx → α) (idx : IVec ⟨1, ![2]⟩ w) (upd : (⟨2, ![a, b]⟩ : Shape).Idx → α) (r0 c0 : ℕ)
    (hr : (idx (ix1 0)).toInt = (r0 : ℤ)) (hc : (idx (ix1 1)).toInt = (c0 : ℤ))
    (hR : r0 + a ≤ R) (hC : c0 + b ≤ C) (i : (⟨2, ![R, C]⟩ : Shape).Idx)
    (hi0 : r0 ≤ (i 0).val) (hi0' : (i 0).val < r0 + a) (hi1 : c0 ≤ (i 1).val) (hi1' : (i 1).val < c0 + b) :
    Host.scatter d (fun _ v => v) x idx upd i
      = upd (ix2 ⟨(i 0).val - r0, by omega⟩ ⟨(i 1).val - c0, by omega⟩) := by
  unfold Host.scatter
  refine foldl_hit (fun n => d.resultIdx? ((⟨2, ![a, b]⟩ : Shape).rowMajor.symm n) idx)
    (fun n => upd ((⟨2, ![a, b]⟩ : Shape).rowMajor.symm n)) _ ?_ ?_ _ x i _ ?_ ?_
  · intro r n i' h
    simp only [h]
  · intro r n h
    simp only [h]
  · refine ⟨(⟨2, ![a, b]⟩ : Shape).rowMajor (ix2 ⟨(i 0).val - r0, by omega⟩ ⟨(i 1).val - c0, by omega⟩),
      List.mem_finRange _, ?_⟩
    rw [Equiv.symm_apply_apply, resultIdx?_eq d h1 h2 h3 h4 idx r0 c0 hr hc hR hC]
    refine congrArg some ((congrArg₂ ix2 (Fin.ext ?_) (Fin.ext ?_)).trans (eq_ix2 i).symm)
    · show r0 + ((i 0).val - r0) = (i 0).val
      omega
    · show c0 + ((i 1).val - c0) = (i 1).val
      omega
  · intro n _ hn
    rw [resultIdx?_eq d h1 h2 h3 h4 idx r0 c0 hr hc hR hC] at hn
    have hi := Option.some.inj hn
    have e0 : r0 + (((⟨2, ![a, b]⟩ : Shape).rowMajor.symm n) 0).val = (i 0).val := congrArg (fun t => (t 0).val) hi
    have e1 : c0 + (((⟨2, ![a, b]⟩ : Shape).rowMajor.symm n) 1).val = (i 1).val := congrArg (fun t => (t 1).val) hi
    refine congrArg upd ((eq_ix2 _).trans (congrArg₂ ix2 (Fin.ext ?_) (Fin.ext ?_)))
    · show (((⟨2, ![a, b]⟩ : Shape).rowMajor.symm n) 0).val = (i 0).val - r0
      omega
    · show (((⟨2, ![a, b]⟩ : Shape).rowMajor.symm n) 1).val = (i 1).val - c0
      omega

/-- Outside the window the result is the operand. -/
theorem scatter_window_outside (d : ScatterDims ⟨2, ![R, C]⟩ ⟨1, ![2]⟩ ⟨2, ![a, b]⟩)
    (h1 : d.updateWindowDims = [0, 1]) (h2 : d.insertedWindowDims = [])
    (h3 : d.scatterDimsToOperandDims = [0, 1]) (h4 : d.indexVectorDim = 0)
    (x : (⟨2, ![R, C]⟩ : Shape).Idx → α) (idx : IVec ⟨1, ![2]⟩ w) (upd : (⟨2, ![a, b]⟩ : Shape).Idx → α) (r0 c0 : ℕ)
    (hr : (idx (ix1 0)).toInt = (r0 : ℤ)) (hc : (idx (ix1 1)).toInt = (c0 : ℤ))
    (hR : r0 + a ≤ R) (hC : c0 + b ≤ C) (i : (⟨2, ![R, C]⟩ : Shape).Idx)
    (hout : ¬ ((r0 ≤ (i 0).val ∧ (i 0).val < r0 + a) ∧ (c0 ≤ (i 1).val ∧ (i 1).val < c0 + b))) :
    Host.scatter d (fun _ v => v) x idx upd i = x i := by
  unfold Host.scatter
  refine foldl_miss (fun n => d.resultIdx? ((⟨2, ![a, b]⟩ : Shape).rowMajor.symm n) idx)
    (fun n => upd ((⟨2, ![a, b]⟩ : Shape).rowMajor.symm n)) _ ?_ ?_ _ x i ?_
  · intro r n i' h
    simp only [h]
  · intro r n h
    simp only [h]
  · intro n _ hn
    rw [resultIdx?_eq d h1 h2 h3 h4 idx r0 c0 hr hc hR hC] at hn
    have hi := Option.some.inj hn
    have e0 : r0 + (((⟨2, ![a, b]⟩ : Shape).rowMajor.symm n) 0).val = (i 0).val := congrArg (fun t => (t 0).val) hi
    have e1 : c0 + (((⟨2, ![a, b]⟩ : Shape).rowMajor.symm n) 1).val = (i 1).val := congrArg (fun t => (t 1).val) hi
    have l0 := idx2_lt0 ((⟨2, ![a, b]⟩ : Shape).rowMajor.symm n)
    have l1 := idx2_lt1 ((⟨2, ![a, b]⟩ : Shape).rowMajor.symm n)
    exact hout ⟨⟨by omega, by omega⟩, ⟨by omega, by omega⟩⟩

/-- Both cases in one statement. -/
theorem scatter_window_apply (d : ScatterDims ⟨2, ![R, C]⟩ ⟨1, ![2]⟩ ⟨2, ![a, b]⟩)
    (h1 : d.updateWindowDims = [0, 1]) (h2 : d.insertedWindowDims = [])
    (h3 : d.scatterDimsToOperandDims = [0, 1]) (h4 : d.indexVectorDim = 0)
    (x : (⟨2, ![R, C]⟩ : Shape).Idx → α) (idx : IVec ⟨1, ![2]⟩ w) (upd : (⟨2, ![a, b]⟩ : Shape).Idx → α) (r0 c0 : ℕ)
    (hr : (idx (ix1 0)).toInt = (r0 : ℤ)) (hc : (idx (ix1 1)).toInt = (c0 : ℤ))
    (hR : r0 + a ≤ R) (hC : c0 + b ≤ C) (i : (⟨2, ![R, C]⟩ : Shape).Idx) :
    Host.scatter d (fun _ v => v) x idx upd i
      = if h : (r0 ≤ (i 0).val ∧ (i 0).val < r0 + a) ∧ (c0 ≤ (i 1).val ∧ (i 1).val < c0 + b) then
          upd (ix2 ⟨(i 0).val - r0, by omega⟩ ⟨(i 1).val - c0, by omega⟩)
        else x i := by
  by_cases h : (r0 ≤ (i 0).val ∧ (i 0).val < r0 + a) ∧ (c0 ≤ (i 1).val ∧ (i 1).val < c0 + b)
  · rw [dif_pos h]
    exact scatter_window_inside d h1 h2 h3 h4 x idx upd r0 c0 hr hc hR hC i h.1.1 h.1.2 h.2.1 h.2.2
  · rw [dif_neg h]
    exact scatter_window_outside d h1 h2 h3 h4 x idx upd r0 c0 hr hc hR hC i h

end Land

end Cert.ScatterWindow
-- ==== Proof.RefPacked.lean ====
/-
  What the reference's region finds in the operands the host packed before it: the first layer's weights and
  biases side by side; the second layer's weights block-diagonal (the two overwrites of a zero matrix land on
  disjoint blocks), its biases side by side; the third layer's weights block-diagonal with an identity block,
  its biases the mu biases followed by zeros.

  Each operand is first read as the host operations' composed term of the argument arrays; then a column
  concatenation is two matrices side by side, a broadcast zero constant is the zero matrix, two window overwrites
  of a zero matrix at `(0, 0)` and at the first block's extents are the block-diagonal matrix (the pointwise
  reading of a window overwrite is `LibScatterWindow`'s), and the float of the comparison of a row iota with a
  column iota is the identity matrix.
-/
import proofs.«174333_g2000702497057735_pallasbulk_324_8_alg».proof.Proof.Gen.ReferenceIdeal.Frame
import proofs.«174333_g2000702497057735_pallasbulk_324_8_alg».proof.Proof.Spec
import proofs.«174333_g2000702497057735_pallasbulk_324_8_alg».proof.Proof.LibScatterWindow
import Idealize.ShloMosaic.Lib.Pipeline.Value
import Idealize.ShloMosaic.Lib.StableHlo.Run

noncomputable section

namespace Cert.ReferenceIdeal.Bridge

open Idealize.ShloMosaic Idealize.ShloMosaic.TcCoe Idealize.ShloMosaic.ValueIdx Cert.ReferenceIdeal Cert.ReferenceIdeal.Gen

variable (m : (ℓ : Loc nD τ sig) → Buf (Elt Ideal) ℓ) (c : Dev nD)

/-! ## General steps -/

/-- Two matrices concatenated along the columns are the two side by side. -/
theorem concat_cols_eq_hcat {a b c' n : ℕ} (hn : n = b + c')
    (h : Shape.Concatenates [(⟨2, ![a, b]⟩ : Shape), ⟨2, ![a, c']⟩] ⟨2, ![a, n]⟩ 1)
    (l : Cert.Spec.Mat a b) (r : Cert.Spec.Mat a c') :
    concatenate ⟨2, ![a, n]⟩ 1 [⟨⟨2, ![a, b]⟩, l⟩, ⟨⟨2, ![a, c']⟩, r⟩] h = Cert.Spec.hcat n hn l r := by
  funext i
  unfold Cert.Spec.hcat
  by_cases hb : (i 1).val < b
  · rw [dif_pos hb]
    exact concatenate_pair_apply_left 1 l r h i rfl _ (Fin.forall_fin_two.2 ⟨rfl, rfl⟩)
  · rw [dif_neg hb]
    refine concatenate_pair_apply_right 1 l r h i rfl rfl _ ?_ ?_
    · exact Fin.forall_fin_two.2 ⟨fun _ => rfl, fun h1 => absurd rfl h1⟩
    · show ((i 1).val - b) + b = (i 1).val
      omega

/-- The zero constant broadcast to a matrix is the zero matrix. -/
theorem bcast_zero_eq_zeros {a b : ℕ} (h : (⟨0, ![]⟩ : Shape).BroadcastsInDim ⟨2, ![a, b]⟩ (![] : Fin 0 → Fin 2)) :
    broadcastInDim ⟨2, ![a, b]⟩ ![] h (constant (F := Ideal) ⟨0, ![]⟩ .f32 0x00000000#32) = Cert.Spec.zeros a b := by
  funext j
  show Ideal.ofBits .f32 0x00000000#32 = 0
  exact Ideal.ofBits_zero_f32

/-- A two-word vector built from two one-word pieces, read at its first position. -/
theorem concat2_zero {α : Type} (h : Shape.Concatenates [(⟨1, ![1]⟩ : Shape), ⟨1, ![1]⟩] ⟨1, ![2]⟩ 0)
    (x₁ x₂ : (⟨1, ![1]⟩ : Shape).Idx → α) :
    concatenate ⟨1, ![2]⟩ 0 [⟨⟨1, ![1]⟩, x₁⟩, ⟨⟨1, ![1]⟩, x₂⟩] h (ix1 0) = x₁ (ix1 0) :=
  concatenate_pair_apply_left 0 x₁ x₂ h (ix1 0) rfl (ix1 0) fun b => by
    match b with
    | ⟨0, _⟩ => rfl

/-- The same at its second position. -/
theorem concat2_one {α : Type} (h : Shape.Concatenates [(⟨1, ![1]⟩ : Shape), ⟨1, ![1]⟩] ⟨1, ![2]⟩ 0)
    (x₁ x₂ : (⟨1, ![1]⟩ : Shape).Idx → α) :
    concatenate ⟨1, ![2]⟩ 0 [⟨⟨1, ![1]⟩, x₁⟩, ⟨⟨1, ![1]⟩, x₂⟩] h (ix1 1) = x₂ (ix1 0) :=
  concatenate_pair_apply_right 0 x₁ x₂ h (ix1 1) rfl rfl (ix1 0)
    (fun b hb => by
      match b with
      | ⟨0, _⟩ => exact absurd rfl hb)
    rfl

/-- The start vector `(p, q)` the host builds from two broadcast constants. -/
abbrev startVec (p q : BitVec 32) : IVec S2 32 :=
  concatenate S2 0 [⟨S1, broadcastInDim S1 ![] bcast_S_S1 (constantI S_ 32 p)⟩,
    ⟨S1, broadcastInDim S1 ![] bcast_S_S1 (constantI S_ 32 q)⟩] concatenates_S1_S1_S2_d0

theorem startVec_zero (p q : BitVec 32) : startVec p q (ix1 0) = p := concat2_zero _ _ _
theorem startVec_one (p q : BitVec 32) : startVec p q (ix1 1) = q := concat2_one _ _ _

open Cert.ScatterWindow in
/-- A zero matrix overwritten by `tl` at `(0, 0)` and then by `br` at `(a, b)`, the extents of `tl`, is the
    block-diagonal matrix of the two: the two windows are disjoint, and what neither covers stays zero. -/
theorem scatter2_eq_blockDiag {a b c' d' : ℕ} (R C : ℕ) (hR : R = a + c') (hC : C = b + d')
    (d₁ : ScatterDims ⟨2, ![R, C]⟩ ⟨1, ![2]⟩ ⟨2, ![a, b]⟩) (d₂ : ScatterDims ⟨2, ![R, C]⟩ ⟨1, ![2]⟩ ⟨2, ![c', d']⟩)
    (h1 : d₁.updateWindowDims = [0, 1]) (h2 : d₁.insertedWindowDims = [])
    (h3 : d₁.scatterDimsToOperandDims = [0, 1]) (h4 : d₁.indexVectorDim = 0)
    (k1 : d₂.updateWindowDims = [0, 1]) (k2 : d₂.insertedWindowDims = [])
    (k3 : d₂.scatterDimsToOperandDims = [0, 1]) (k4 : d₂.indexVectorDim = 0)
    (idx₁ idx₂ : IVec ⟨1, ![2]⟩ 32)
    (hr₁ : (idx₁ (ix1 0)).toInt = ((0 : ℕ) : ℤ)) (hc₁ : (idx₁ (ix1 1)).toInt = ((0 : ℕ) : ℤ))
    (hr₂ : (idx₂ (ix1 0)).toInt = (a : ℤ)) (hc₂ : (idx₂ (ix1 1)).toInt = (b : ℤ))
    (tl : Cert.Spec.Mat a b) (br : Cert.Spec.Mat c' d') :
    Host.scatter d₂ (fun _ v => v) (Host.scatter d₁ (fun _ v => v) (Cert.Spec.zeros R C) idx₁ tl) idx₂ br
      = Cert.Spec.blockDiag R C hR hC tl br := by
  subst hR hC
  funext i
  have hi0 := idx2_lt0 i
  have hi1 := idx2_lt1 i
  unfold Cert.Spec.blockDiag
  by_cases hr : (i 0).val < a
  · rw [dif_pos hr, scatter_window_outside d₂ k1 k2 k3 k4 _ idx₂ br a b hr₂ hc₂ (by omega) (by omega) i (by omega)]
    by_cases hc : (i 1).val < b
    · rw [dif_pos hc, scatter_window_inside d₁ h1 h2 h3 h4 _ idx₁ tl 0 0 hr₁ hc₁ (by omega) (by omega) i
        (by omega) (by omega) (by omega) (by omega)]
      rfl
    · rw [dif_neg hc, scatter_window_outside d₁ h1 h2 h3 h4 _ idx₁ tl 0 0 hr₁ hc₁ (by omega) (by omega) i (by omega)]
      rfl
  · rw [dif_neg hr]
    by_cases hc : (i 1).val < b
    · rw [dif_pos hc, scatter_window_outside d₂ k1 k2 k3 k4 _ idx₂ br a b hr₂ hc₂ (by omega) (by omega) i (by omega),
        scatter_window_outside d₁ h1 h2 h3 h4 _ idx₁ tl 0 0 hr₁ hc₁ (by omega) (by omega) i (by omega)]
      rfl
    · rw [dif_neg hc, scatter_window_inside d₂ k1 k2 k3 k4 _ idx₂ br a b hr₂ hc₂ (by omega) (by omega) i
        (by omega) (by omega) (by omega) (by omega)]

/-- Two 32-bit words of numbers below `2 ^ 32` are equal exactly when the numbers are. -/
theorem ofNat32_beq (p q : ℕ) (hp : p < 2 ^ 32) (hq : q < 2 ^ 32) :
    (BitVec.ofNat 32 p == BitVec.ofNat 32 q) = decide (p = q) := by
  by_cases h : p = q
  · subst h; simp
  · have hne : BitVec.ofNat 32 p ≠ BitVec.ofNat 32 q := fun e => by
      have := congrArg BitVec.toNat e
      rw [BitVec.toNat_ofNat, BitVec.toNat_ofNat, Nat.mod_eq_of_lt hp, Nat.mod_eq_of_lt hq] at this
      exact h this
    rw [decide_eq_false h]
    exact beq_false_of_ne hne

/-- One entry of the identity block: the comparison of the row number (plus zero) with the column number, as a float. -/
theorem eye_entry (p q : ℕ) (hp : p < 256) (hq : q < 256) :
    (FloatOps.uitofp (F := Ideal) .f32
        (IntOp.cmpi .eq (IntOp.addi (BitVec.ofNat 32 p) 0#32) (BitVec.ofNat 32 q)) : EReal)
      = if p = q then 1 else 0 := by
  have hb : (IntOp.addi (BitVec.ofNat 32 p) 0#32 == BitVec.ofNat 32 q) = decide (p = q) := by
    unfold IntOp.addi
    rw [BitVec.add_zero]
    exact ofNat32_beq p q (by omega) (by omega)
  show (((BitVec.ofBool (IntOp.addi (BitVec.ofNat 32 p) 0#32 == BitVec.ofNat 32 q)).toNat : ℝ) : EReal) = _
  rw [hb]
  by_cases h : p = q
  · rw [decide_eq_true h, if_pos h]; simp
  · rw [decide_eq_false h, if_neg h]; simp

/-- The identity block the host builds from two iotas is the identity matrix. -/
theorem eyeTerm_eq :
    (uitofp .f32 (cmpi .eq (addi (iotaInDim S256x256 32 0) (broadcastInDim S256x256 ![] bcast_S_S256x256 (constantI S_ 32 0#32)))
        (iotaInDim S256x256 32 1)) : FVec Ideal S256x256 .f32) = Cert.Spec.eye 256 := by
  funext i
  exact eye_entry (i 0).val (i 1).val (idx2_lt0 i) (idx2_lt1 i)

/-! ## The packed operands -/

theorem V_w1 : Gen.V (F := Ideal) m c main_v0
    = Cert.Spec.hcat 2048 rfl (m ((c : Thread nD τ).loc main_arg1)) (m ((c : Thread nD τ).loc main_arg7)) := by
  dsimp only [Gen.V, Gen.V0]
  simp only [List.flatten_cons, List.flatten_nil, List.append_nil]
  show StableHlo.after hostOps0 (fun b => m (c, b)) (Proc.devRef .tc main_v0) = _
  after_results
  exact concat_cols_eq_hcat (a := 512) (b := 1024) (c' := 1024) (n := 2048) rfl _ _ _

theorem V_b1 : Gen.V (F := Ideal) m c main_v1
    = Cert.Spec.hcat 2048 rfl (m ((c : Thread nD τ).loc main_arg2)) (m ((c : Thread nD τ).loc main_arg8)) := by
  dsimp only [Gen.V, Gen.V0]
  simp only [List.flatten_cons, List.flatten_nil, List.append_nil]
  show StableHlo.after hostOps0 (fun b => m (c, b)) (Proc.devRef .tc main_v1) = _
  after_results
  exact concat_cols_eq_hcat (a := 1) (b := 1024) (c' := 1024) (n := 2048) rfl _ _ _

theorem V_w2 : Gen.V (F := Ideal) m c main_v10
    = Cert.Spec.blockDiag 2048 768 rfl rfl (m ((c : Thread nD τ).loc main_arg3)) (m ((c : Thread nD τ).loc main_arg9)) := by
  dsimp only [Gen.V, Gen.V0]
  simp only [List.flatten_cons, List.flatten_nil, List.append_nil]
  show StableHlo.after hostOps0 (fun b => m (c, b)) (Proc.devRef .tc main_v10) = _
  after_results
  rw [show broadcastInDim S2048x768 ![] bcast_S_S2048x768 (constant (F := Ideal) S_ .f32 0x00000000#32) = Cert.Spec.zeros 2048 768 from
    bcast_zero_eq_zeros _]
  exact scatter2_eq_blockDiag (a := 1024) (b := 512) (c' := 1024) (d' := 256) 2048 768 rfl rfl _ _ rfl rfl rfl rfl rfl rfl rfl rfl
    (startVec 0#32 0#32) (startVec 1024#32 512#32)
    (by rw [startVec_zero]; rfl) (by rw [startVec_one]; rfl) (by rw [startVec_zero]; rfl) (by rw [startVec_one]; rfl) _ _

theorem V_b2 : Gen.V (F := Ideal) m c main_v11
    = Cert.Spec.hcat 768 rfl (m ((c : Thread nD τ).loc main_arg4)) (m ((c : Thread nD τ).loc main_arg10)) := by
  dsimp only [Gen.V, Gen.V0]
  simp only [List.flatten_cons, List.flatten_nil, List.append_nil]
  show StableHlo.after hostOps0 (fun b => m (c, b)) (Proc.devRef .tc main_v11) = _
  after_results
  exact concat_cols_eq_hcat (a := 1) (b := 512) (c' := 256) (n := 768) rfl _ _ _

theorem V_w3 : Gen.V (F := Ideal) m c main_v26
    = Cert.Spec.blockDiag 768 512 rfl rfl (m ((c : Thread nD τ).loc main_arg5)) (Cert.Spec.eye 256) := by
  dsimp only [Gen.V, Gen.V0]
  simp only [List.flatten_cons, List.flatten_nil, List.append_nil]
  show StableHlo.after hostOps0 (fun b => m (c, b)) (Proc.devRef .tc main_v26) = _
  after_results
  rw [show broadcastInDim S768x512 ![] bcast_S_S768x512 (constant (F := Ideal) S_ .f32 0x00000000#32) = Cert.Spec.zeros 768 512 from
    bcast_zero_eq_zeros _, eyeTerm_eq]
  exact scatter2_eq_blockDiag (a := 512) (b := 256) (c' := 256) (d' := 256) 768 512 rfl rfl _ _ rfl rfl rfl rfl rfl rfl rfl rfl
    (startVec 0#32 0#32) (startVec 512#32 256#32)
    (by rw [startVec_zero]; rfl) (by rw [startVec_one]; rfl) (by rw [startVec_zero]; rfl) (by rw [startVec_one]; rfl) _ _

theorem V_b3 : Gen.V (F := Ideal) m c main_v28
    = Cert.Spec.hcat 512 rfl (m ((c : Thread nD τ).loc main_arg6)) (Cert.Spec.zeros 1 256) := by
  dsimp only [Gen.V, Gen.V0]
  simp only [List.flatten_cons, List.flatten_nil, List.append_nil]
  show StableHlo.after hostOps0 (fun b => m (c, b)) (Proc.devRef .tc main_v28) = _
  after_results
  rw [show broadcastInDim S1x256 ![] bcast_S_S1x256 (constant (F := Ideal) S_ .f32 0x00000000#32) = Cert.Spec.zeros 1 256 from
    bcast_zero_eq_zeros _]
  exact concat_cols_eq_hcat (a := 1) (b := 256) (c' := 256) (n := 512) rfl _ _ _

end Cert.ReferenceIdeal.Bridge

end
-- ==== Proof.PackedAlgebra.lean ====
/-
  The packed stack is the two branches.

  Write H = relu (x·w1m + b1m), T = softplus (x·w1t + b1t), H1 = relu (H·w2m + b2m), tau = T·w2t + b2t.
  With the first layer's operands side by side the first packed layer is [H | T] (the clamp inside the
  packed softplus is idle). A dense layer of a side-by-side input [xl | xr] over a block-diagonal weight
  diag(tl, br) and side-by-side biases is, column by column, the layer of xl over tl or of xr over br: the
  contraction splits into the two halves of its index, and the half that meets a zero block contributes
  products with zero, which vanish for EVERY extended real, infinite ones included — no finiteness is used.
  So the second packed layer is [H1 | tau], and the third, whose lower-right block is the identity with zero
  biases, is [mu | tau]: a sum of tau(r,k)·δ(k,q) over k is tau(r,q).
-/
import proofs.«174333_g2000702497057735_pallasbulk_324_8_alg».proof.Proof.Spec

noncomputable section

namespace Cert.Spec

open Idealize.ShloMosaic Idealize.ShloMosaic.ValueIdx

/-- A sum over `Fin N` with `N = a + c` is the sum over the first `a` indices plus the sum over the last `c`. -/
theorem sum_split {a c N : ℕ} (h : N = a + c) (f : Fin N → EReal) :
    ∑ k : Fin N, f k = (∑ k : Fin a, f ⟨k.val, by have := k.isLt; omega⟩) + ∑ k : Fin c, f ⟨a + k.val, by have := k.isLt; omega⟩ := by
  subst h
  rw [Fin.sum_univ_add]
  rfl

/-! ## The packed operands read at an index -/

theorem hcat_left {a b c : ℕ} (n : ℕ) (h : n = b + c) (l : Mat a b) (r : Mat a c) (i : Fin a) (k : Fin n) (hk : k.val < b) :
    hcat n h l r (ix2 i k) = l (ix2 i ⟨k.val, hk⟩) := by
  unfold hcat
  rw [dif_pos (show ((ix2 i k : (⟨2, ![a, n]⟩ : Shape).Idx) 1).val < b from hk)]
  rfl

theorem hcat_right {a b c : ℕ} (n : ℕ) (h : n = b + c) (l : Mat a b) (r : Mat a c) (i : Fin a) (k : Fin n) (hk : ¬ k.val < b) :
    hcat n h l r (ix2 i k) = r (ix2 i ⟨k.val - b, by have := k.isLt; omega⟩) := by
  unfold hcat
  rw [dif_neg (show ¬ ((ix2 i k : (⟨2, ![a, n]⟩ : Shape).Idx) 1).val < b from hk)]
  rfl

theorem blockDiag_tl {a b c d : ℕ} (R C : ℕ) (hR : R = a + c) (hC : C = b + d) (tl : Mat a b) (br : Mat c d)
    (i : Fin R) (k : Fin C) (hi : i.val < a) (hk : k.val < b) :
    blockDiag R C hR hC tl br (ix2 i k) = tl (ix2 ⟨i.val, hi⟩ ⟨k.val, hk⟩) := by
  unfold blockDiag
  rw [dif_pos (show ((ix2 i k : (⟨2, ![R, C]⟩ : Shape).Idx) 0).val < a from hi),
    dif_pos (show ((ix2 i k : (⟨2, ![R, C]⟩ : Shape).Idx) 1).val < b from hk)]
  rfl

theorem blockDiag_tr {a b c d : ℕ} (R C : ℕ) (hR : R = a + c) (hC : C = b + d) (tl : Mat a b) (br : Mat c d)
    (i : Fin R) (k : Fin C) (hi : i.val < a) (hk : ¬ k.val < b) :
    blockDiag R C hR hC tl br (ix2 i k) = 0 := by
  unfold blockDiag
  rw [dif_pos (show ((ix2 i k : (⟨2, ![R, C]⟩ : Shape).Idx) 0).val < a from hi),
    dif_neg (show ¬ ((ix2 i k : (⟨2, ![R, C]⟩ : Shape).Idx) 1).val < b from hk)]

theorem blockDiag_bl {a b c d : ℕ} (R C : ℕ) (hR : R = a + c) (hC : C = b + d) (tl : Mat a b) (br : Mat c d)
    (i : Fin R) (k : Fin C) (hi : ¬ i.val < a) (hk : k.val < b) :
    blockDiag R C hR hC tl br (ix2 i k) = 0 := by
  unfold blockDiag
  rw [dif_neg (show ¬ ((ix2 i k : (⟨2, ![R, C]⟩ : Shape).Idx) 0).val < a from hi),
    dif_pos (show ((ix2 i k : (⟨2, ![R, C]⟩ : Shape).Idx) 1).val < b from hk)]

theorem blockDiag_br {a b c d : ℕ} (R C : ℕ) (hR : R = a + c) (hC : C = b + d) (tl : Mat a b) (br : Mat c d)
    (i : Fin R) (k : Fin C) (hi : ¬ i.val < a) (hk : ¬ k.val < b) :
    blockDiag R C hR hC tl br (ix2 i k)
      = br (ix2 ⟨i.val - a, by have := i.isLt; omega⟩ ⟨k.val - b, by have := k.isLt; omega⟩) := by
  unfold blockDiag
  rw [dif_neg (show ¬ ((ix2 i k : (⟨2, ![R, C]⟩ : Shape).Idx) 0).val < a from hi),
    dif_neg (show ¬ ((ix2 i k : (⟨2, ![R, C]⟩ : Shape).Idx) 1).val < b from hk)]
  rfl

/-! ## A dense layer over packed operands -/

/-- Weights and biases side by side: a column below `b` is the left layer's column. -/
theorem dense_hcat_left {n a b c : ℕ} (N : ℕ) (h : N = b + c) (x : Mat n a) (wl : Mat a b) (wr : Mat a c)
    (bl : Mat 1 b) (br : Mat 1 c) (r : Fin n) (k : Fin N) (hk : k.val < b) :
    dense x (hcat N h wl wr) (hcat N h bl br) r k = dense x wl bl r ⟨k.val, hk⟩ := by
  unfold dense
  rw [hcat_left N h bl br 0 k hk, Finset.sum_congr rfl fun d _ => by rw [hcat_left N h wl wr d k hk]]

/-- … and a column from `b` on is the right layer's. -/
theorem dense_hcat_right {n a b c : ℕ} (N : ℕ) (h : N = b + c) (x : Mat n a) (wl : Mat a b) (wr : Mat a c)
    (bl : Mat 1 b) (br : Mat 1 c) (r : Fin n) (k : Fin N) (hk : ¬ k.val < b) :
    dense x (hcat N h wl wr) (hcat N h bl br) r k = dense x wr br r ⟨k.val - b, by have := k.isLt; omega⟩ := by
  unfold dense
  rw [hcat_right N h bl br 0 k hk, Finset.sum_congr rfl fun d _ => by rw [hcat_right N h wl wr d k hk]]

/-- A side-by-side input over block-diagonal weights, at a column of the left block: the contraction's second half
    meets the zero block and vanishes, the first half is the left input over the upper-left weights. -/
theorem dense_blockDiag_left {n a b c d : ℕ} (R C : ℕ) (hR : R = a + c) (hC : C = b + d) (xl : Mat n a) (xr : Mat n c)
    (tl : Mat a b) (br : Mat c d) (bl : Mat 1 b) (bR : Mat 1 d) (r : Fin n) (j : Fin C) (hj : j.val < b) :
    dense (hcat R hR xl xr) (blockDiag R C hR hC tl br) (hcat C hC bl bR) r j = dense xl tl bl r ⟨j.val, hj⟩ := by
  unfold dense
  rw [hcat_left C hC bl bR 0 j hj, sum_split hR]
  have h2 : (∑ k : Fin c, hcat R hR xl xr (ix2 r ⟨a + k.val, by have := k.isLt; omega⟩)
      * blockDiag R C hR hC tl br (ix2 ⟨a + k.val, by have := k.isLt; omega⟩ j)) = 0 :=
    Finset.sum_eq_zero fun k _ => by
      rw [blockDiag_bl R C hR hC tl br ⟨a + k.val, by have := k.isLt; omega⟩ j (by simp) hj, mul_zero]
  rw [h2, add_zero]
  refine congrArg (· + bl (ix2 0 ⟨j.val, hj⟩)) (Finset.sum_congr rfl fun k _ => ?_)
  rw [hcat_left R hR xl xr r ⟨k.val, by have := k.isLt; omega⟩ k.isLt,
    blockDiag_tl R C hR hC tl br ⟨k.val, by have := k.isLt; omega⟩ j k.isLt hj]

/-- … and at a column of the right block: the first half vanishes, the second is the right input over the
    lower-right weights. -/
theorem dense_blockDiag_right {n a b c d : ℕ} (R C : ℕ) (hR : R = a + c) (hC : C = b + d) (xl : Mat n a) (xr : Mat n c)
    (tl : Mat a b) (br : Mat c d) (bl : Mat 1 b) (bR : Mat 1 d) (r : Fin n) (j : Fin C) (hj : ¬ j.val < b) :
    dense (hcat R hR xl xr) (blockDiag R C hR hC tl br) (hcat C hC bl bR) r j
      = dense xr br bR r ⟨j.val - b, by have := j.isLt; omega⟩ := by
  unfold dense
  rw [hcat_right C hC bl bR 0 j hj, sum_split hR]
  have h1 : (∑ k : Fin a, hcat R hR xl xr (ix2 r ⟨k.val, by have := k.isLt; omega⟩)
      * blockDiag R C hR hC tl br (ix2 ⟨k.val, by have := k.isLt; omega⟩ j)) = 0 :=
    Finset.sum_eq_zero fun k _ => by
      rw [blockDiag_tr R C hR hC tl br ⟨k.val, by have := k.isLt; omega⟩ j k.isLt hj, mul_zero]
  rw [h1, zero_add]
  refine congrArg (· + bR (ix2 0 ⟨j.val - b, by have := j.isLt; omega⟩)) (Finset.sum_congr rfl fun k _ => ?_)
  have hk : ¬ (a + k.val) < a := by omega
  rw [hcat_right R hR xl xr r ⟨a + k.val, by have := k.isLt; omega⟩ hk,
    blockDiag_br R C hR hC tl br ⟨a + k.val, by have := k.isLt; omega⟩ j hk hj]
  have e : (⟨a + k.val - a, by have := k.isLt; omega⟩ : Fin c) = k := Fin.ext (by simp)
  rw [e]

/-- The identity weights with zero biases pass the input through. -/
theorem dense_eye {n a : ℕ} (x : Mat n a) (r : Fin n) (q : Fin a) : dense x (eye a) (zeros 1 a) r q = x (ix2 r q) := by
  unfold dense
  show (∑ d : Fin a, x (ix2 r d) * (if d.val = q.val then (1 : EReal) else 0)) + 0 = _
  rw [add_zero, Finset.sum_eq_single q]
  · rw [if_pos rfl, mul_one]
  · intro d _ hd
    rw [if_neg (fun h => hd (Fin.ext h)), mul_zero]
  · intro h; exact absurd (Finset.mem_univ q) h

/-! ## The three packed layers -/

section
variable {n : ℕ} (x : Mat n 512) (w1m w1t : Mat 512 1024) (b1m b1t : Mat 1 1024) (w2m : Mat 1024 512) (w2t : Mat 1024 256)
  (b2m : Mat 1 512) (b2t : Mat 1 256) (w3m : Mat 512 256) (b3m : Mat 1 256)

/-- The first packed layer is the two branches' first layers side by side. -/
theorem packed_layer1 :
    layerSel 1024 relu softplusClamped x (hcat 2048 rfl w1m w1t) (hcat 2048 rfl b1m b1t)
      = hcat 2048 rfl (layer relu x w1m b1m) (layer softplus x w1t b1t) := by
  funext i
  obtain ⟨r, k, rfl⟩ : ∃ (r : Fin n) (k : Fin 2048), i = ix2 r k := ⟨i 0, i 1, eq_ix2 i⟩
  by_cases hk : k.val < 1024
  · rw [hcat_left 2048 rfl _ _ r k hk]
    show (if k.val < 1024 then relu (dense x _ _ r k) else softplusClamped (dense x _ _ r k)) = relu (dense x w1m b1m r ⟨k.val, hk⟩)
    rw [if_pos hk, dense_hcat_left 2048 rfl x w1m w1t b1m b1t r k hk]
  · rw [hcat_right 2048 rfl _ _ r k hk]
    show (if k.val < 1024 then relu (dense x _ _ r k) else softplusClamped (dense x _ _ r k))
      = softplus (dense x w1t b1t r ⟨k.val - 1024, _⟩)
    rw [if_neg hk, dense_hcat_right 2048 rfl x w1m w1t b1m b1t r k hk, softplusClamped_eq]

/-- The second packed layer, over [H | T], is [H1 | tau]. -/
theorem packed_layer2 (H T : Mat n 1024) :
    layerSel 512 relu id (hcat 2048 rfl H T) (blockDiag 2048 768 rfl rfl w2m w2t) (hcat 768 rfl b2m b2t)
      = hcat 768 rfl (layer relu H w2m b2m) (layer id T w2t b2t) := by
  funext i
  obtain ⟨r, k, rfl⟩ : ∃ (r : Fin n) (k : Fin 768), i = ix2 r k := ⟨i 0, i 1, eq_ix2 i⟩
  by_cases hk : k.val < 512
  · rw [hcat_left 768 rfl _ _ r k hk]
    show (if k.val < 512 then relu (dense _ _ _ r k) else id (dense _ _ _ r k)) = relu (dense H w2m b2m r ⟨k.val, hk⟩)
    rw [if_pos hk, dense_blockDiag_left 2048 768 rfl rfl H T w2m w2t b2m b2t r k hk]
  · rw [hcat_right 768 rfl _ _ r k hk]
    show (if k.val < 512 then relu (dense _ _ _ r k) else id (dense _ _ _ r k)) = id (dense T w2t b2t r ⟨k.val - 512, _⟩)
    rw [if_neg hk, dense_blockDiag_right 2048 768 rfl rfl H T w2m w2t b2m b2t r k hk]

/-- The left 256 columns of the packed stack are the mu branch. -/
theorem packed_left :
    leftCols 256 256 512 rfl (packed x (hcat 2048 rfl w1m w1t) (hcat 2048 rfl b1m b1t)
        (blockDiag 2048 768 rfl rfl w2m w2t) (hcat 768 rfl b2m b2t)
        (blockDiag 768 512 rfl rfl w3m (eye 256)) (hcat 512 rfl b3m (zeros 1 256)))
      = mu x w1m b1m w2m b2m w3m b3m := by
  unfold packed
  rw [packed_layer1, packed_layer2]
  funext i
  obtain ⟨r, q, rfl⟩ : ∃ (r : Fin n) (q : Fin 256), i = ix2 r q := ⟨i 0, i 1, eq_ix2 i⟩
  exact dense_blockDiag_left 768 512 rfl rfl (layer relu (layer relu x w1m b1m) w2m b2m) (layer id (layer softplus x w1t b1t) w2t b2t)
    w3m (eye 256) b3m (zeros 1 256) r ⟨q.val, by have := q.isLt; omega⟩ q.isLt

/-- The right 256 columns of the packed stack are the tau branch. -/
theorem packed_right :
    rightCols 256 256 512 rfl (packed x (hcat 2048 rfl w1m w1t) (hcat 2048 rfl b1m b1t)
        (blockDiag 2048 768 rfl rfl w2m w2t) (hcat 768 rfl b2m b2t)
        (blockDiag 768 512 rfl rfl w3m (eye 256)) (hcat 512 rfl b3m (zeros 1 256)))
      = tau x w1t b1t w2t b2t := by
  unfold packed
  rw [packed_layer1, packed_layer2]
  funext i
  obtain ⟨r, q, rfl⟩ : ∃ (r : Fin n) (q : Fin 256), i = ix2 r q := ⟨i 0, i 1, eq_ix2 i⟩
  have hq : ¬ (256 + q.val) < 256 := by omega
  have h1 := dense_blockDiag_right 768 512 rfl rfl (layer relu (layer relu x w1m b1m) w2m b2m)
    (layer id (layer softplus x w1t b1t) w2t b2t) w3m (eye 256) b3m (zeros 1 256) r ⟨256 + q.val, by have := q.isLt; omega⟩ hq
  refine (h1.trans (dense_eye _ _ _)).trans ?_
  show tau x w1t b1t w2t b2t (ix2 r ⟨256 + q.val - 256, _⟩) = tau x w1t b1t w2t b2t (ix2 r q)
  exact congrArg _ (congrArg (ix2 r) (Fin.ext (by simp)))

end

end Cert.Spec

end
-- ==== Proof.lean ====
/-
  A two-branch dense network over 16384 input rows x, as two result arrays:
    mu  = relu (relu (x·w1m + b1m)·w2m + b2m)·w3m + b3m        tau = softplus (x·w1t + b1t)·w2t + b2t
  with softplus v = v above 20 and log (1 + exp v) at or below it.

  The kernel evaluates the two branches separately, 1024 rows at a time: one product with the two first-layer
  weight matrices side by side, cut into its halves, then each branch's own products. The reference evaluates,
  512 rows at a time, ONE stack of three dense layers over operands its host code packs first — first-layer
  weights and biases side by side; second-layer weights block-diagonal diag(w2m, w2t); third-layer weights
  diag(w3m, I) with the biases (b3m | 0) — choosing the activation per column, and cuts the 512-column result
  into its halves. On the extended reals the two are one function of the arguments (`Cert.Spec.packed_left`,
  `packed_right`): a contraction over a block-diagonal weight splits into its two halves, the half that meets a
  zero block is a sum of products with zero, which vanish at every extended real, the identity block passes tau
  through, and the clamp inside the reference's softplus is idle because the exponential is used only at or below
  the threshold. Only commutativity and associativity of the sums are used, so the precondition is never opened.

  `Spec` states the functions, `PackedAlgebra` the law; `KernelPayload`, `KernelHost`, `KernelRun` read the
  kernel's run as mu and tau of the arguments; `RefPayload`, `LibScatterWindow`, `RefPacked`, `RefRun` read the
  reference's run as the two halves of the packed stack over the packed operands. The three frames are the
  generated ones, and the idealization rewrote nothing.
-/
import proofs.«174333_g2000702497057735_pallasbulk_324_8_alg».proof.Defs
import proofs.«174333_g2000702497057735_pallasbulk_324_8_alg».proof.Proof.Gen.Kernel
import proofs.«174333_g2000702497057735_pallasbulk_324_8_alg».proof.Proof.Gen.Kernel.Frame
import proofs.«174333_g2000702497057735_pallasbulk_324_8_alg».proof.Proof.Gen.KernelIdeal
import proofs.«174333_g2000702497057735_pallasbulk_324_8_alg».proof.Proof.Gen.KernelIdeal.Frame
import proofs.«174333_g2000702497057735_pallasbulk_324_8_alg».proof.Proof.Gen.ReferenceIdeal
import proofs.«174333_g2000702497057735_pallasbulk_324_8_alg».proof.Proof.Gen.ReferenceIdeal.Frame
import proofs.«174333_g2000702497057735_pallasbulk_324_8_alg».proof.Proof.Gen.Pre_finite_inputs
import proofs.«174333_g2000702497057735_pallasbulk_324_8_alg».proof.Proof.KernelRun
import proofs.«174333_g2000702497057735_pallasbulk_324_8_alg».proof.Proof.RefRun
import proofs.«174333_g2000702497057735_pallasbulk_324_8_alg».proof.Proof.RefPacked
import proofs.«174333_g2000702497057735_pallasbulk_324_8_alg».proof.Proof.PackedAlgebra

noncomputable section

namespace Cert.Proof.Claims

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote nothing. -/
theorem preserves : Cert.preserves_Kernel_KernelIdeal := trivial

/-- Both idealized programs end with the mu and tau branches of the argument arrays: the kernel computes them
    directly, block of rows by block of rows; the reference computes the packed stack over the operands its host
    code packs and slices the result into its left and right halves, which are the two branches. -/
theorem algebraic : Cert.algebraic_KernelIdeal_ReferenceIdeal := by
  intro m ρ m' ρ' _ hagree
  refine ⟨_, _, Cert.KernelIdeal.Bridge.run m ρ, ?_⟩
  refine (θ_run Cert.ReferenceIdeal.defs _ _).mono (fun r h c => ?_) (Cert.ReferenceIdeal.Bridge.run m' ρ')
  obtain ⟨h30, h31, hargs⟩ := h c
  obtain ⟨e0, e1, e2, e3, e4, e5, e6, e7, e8, e9, e10⟩ := hagree c
  refine ⟨?_, ?_, hargs⟩
  · rw [h30]
    unfold Cert.ReferenceIdeal.Bridge.P
    rw [Cert.ReferenceIdeal.Bridge.V_w1, Cert.ReferenceIdeal.Bridge.V_b1, Cert.ReferenceIdeal.Bridge.V_w2,
      Cert.ReferenceIdeal.Bridge.V_b2, Cert.ReferenceIdeal.Bridge.V_w3, Cert.ReferenceIdeal.Bridge.V_b3,
      Cert.Spec.packed_left, e0, e1, e2, e3, e4, e5, e6]
  · rw [h31]
    unfold Cert.ReferenceIdeal.Bridge.P
    rw [Cert.ReferenceIdeal.Bridge.V_w1, Cert.ReferenceIdeal.Bridge.V_b1, Cert.ReferenceIdeal.Bridge.V_w2,
      Cert.ReferenceIdeal.Bridge.V_b2, Cert.ReferenceIdeal.Bridge.V_w3, Cert.ReferenceIdeal.Bridge.V_b3,
      Cert.Spec.packed_right, e0, e7, e8, e9, e10]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
